-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v160)) (v1 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : IVec S2x800000 32) (main_arg2 : FVec F S50000x64 .f32) (main_arg3 : IVec S2x800000 32) (main_arg4 : FVec F S64x128 .f32) (main_arg5 : FVec F S128 .f32) (main_arg6 : FVec F S128x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S100000x64 : Shape := ⟨2, ![100000, 64]⟩
abbrev S100000x128 : Shape := ⟨2, ![100000, 128]⟩
abbrev S10000x64 : Shape := ⟨2, ![10000, 64]⟩
abbrev S10000x128 : Shape := ⟨2, ![10000, 128]⟩
abbrev S50000x128 : Shape := ⟨2, ![50000, 128]⟩
abbrev S800000x128 : Shape := ⟨2, ![800000, 128]⟩
abbrev S50000x1 : Shape := ⟨2, ![50000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 204
  | .vmem => 28
  | .smem => 0
  | _ => 0

abbrev hbmTy0_0 (i : Nat) : BufTy := match i % 128 with
  | 0 => ⟨S50000x64, .f32⟩
  | 1 => ⟨S2x800000, .i32⟩
  | 2 => ⟨S50000x64, .f32⟩
  | 3 => ⟨S2x800000, .i32⟩
  | 4 => ⟨S64x128, .f32⟩
  | 5 => ⟨S128, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S100000x64, .f32⟩
  | 37 => ⟨S100000x128, .f32⟩
  | 38 => ⟨S50000x128, .f32⟩
  | 39 => ⟨S50000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x1, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x1, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S100000x128, .f32⟩
  | 111 => ⟨S50000, .f32⟩
  | 112 => ⟨S50000x1, .f32⟩
  | 113 => ⟨S50000, .f32⟩
  | 114 => ⟨S50000x1, .f32⟩
  | 115 => ⟨S100000x1, .f32⟩
  | 116 => ⟨S1x128, .f32⟩
  | 117 => ⟨S100000x128, .f32⟩
  | 118 => ⟨S50000x128, .f32⟩
  | 119 => ⟨S50000x128, .f32⟩
  | 120 => ⟨S100000x128, .f32⟩
  | 121 => ⟨S100000x64, .f32⟩
  | 122 => ⟨S50000x64, .f32⟩
  | 123 => ⟨S50000x64, .f32⟩
  | 124 => ⟨S_, .i32⟩
  | 125 => ⟨S800000, .i32⟩
  | 126 => ⟨S800000, .i1⟩
  | 127 => ⟨S_, .i32⟩
  | _ => ⟨S50000x64, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000, .f32⟩
  | 14 => ⟨S800000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S800000x1, .f32⟩
  | 25 => ⟨S800000x64, .f32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S800000x1, .f32⟩
  | 60 => ⟨S800000x64, .f32⟩
  | 61 => ⟨S800000x64, .f32⟩
  | 62 => ⟨S_, .f32⟩
  | 63 => ⟨S50000x64, .f32⟩
  | 64 => ⟨S800000x1, .i32⟩
  | 65 => ⟨S50000x64, .f32⟩
  | 66 => ⟨S100000x64, .f32⟩
  | 67 => ⟨S50000, .f32⟩
  | 68 => ⟨S50000x1, .f32⟩
  | 69 => ⟨S50000, .f32⟩
  | 70 => ⟨S50000x1, .f32⟩
  | 71 => ⟨S100000x1, .f32⟩
  | 72 => ⟨S1x64, .f32⟩
  | 73 => ⟨S100000x64, .f32⟩
  | 74 => ⟨S50000x64, .f32⟩
  | 75 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S10000x128, .f32⟩
  | .local _ .vmem, ⟨15, _⟩ => ⟨S10000x128, .f32⟩
  | .local _ .vmem, ⟨16, _⟩ => ⟨S128x64, .f32⟩
  | .local _ .vmem, ⟨17, _⟩ => ⟨S10000x64, .f32⟩
  | .local _ .vmem, ⟨18, _⟩ => ⟨S10000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_17 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_18 : Ref sig .tc := ⟨.hbm, 124, rfl⟩
abbrev main_v96 : Ref sig .tc := ⟨.hbm, 125, rfl⟩
abbrev main_v97 : Ref sig .tc := ⟨.hbm, 126, rfl⟩
abbrev main_c_19 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_c_20 : Ref sig .tc := ⟨.hbm, 133, rfl⟩
abbrev main_v103 : Ref sig .tc := ⟨.hbm, 134, rfl⟩
abbrev main_v104 : Ref sig .tc := ⟨.hbm, 135, rfl⟩
abbrev main_c_21 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c_22 : Ref sig .tc := ⟨.hbm, 143, rfl⟩
abbrev main_v111 : Ref sig .tc := ⟨.hbm, 144, rfl⟩
abbrev main_v112 : Ref sig .tc := ⟨.hbm, 145, rfl⟩
abbrev main_c_23 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_24 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_25 : Ref sig .tc := ⟨.hbm, 159, rfl⟩
abbrev main_v124 : Ref sig .tc := ⟨.hbm, 160, rfl⟩
abbrev main_v125 : Ref sig .tc := ⟨.hbm, 161, rfl⟩
abbrev main_c_26 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_c_27 : Ref sig .tc := ⟨.hbm, 168, rfl⟩
abbrev main_v131 : Ref sig .tc := ⟨.hbm, 169, rfl⟩
abbrev main_v132 : Ref sig .tc := ⟨.hbm, 170, rfl⟩
abbrev main_c_28 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_c_29 : Ref sig .tc := ⟨.hbm, 178, rfl⟩
abbrev main_v139 : Ref sig .tc := ⟨.hbm, 179, rfl⟩
abbrev main_v140 : Ref sig .tc := ⟨.hbm, 180, rfl⟩
abbrev main_c_30 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_31 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S50000x64_S50000x64_S100000x64_d0 : Shape.Concatenates [S50000x64, S50000x64] S100000x64 0
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  slices_S100000x128_S50000x128_0_0 : S100000x128.Slices ![0, 0] S50000x128
  slices_S100000x128_S50000x128_50000_0 : S100000x128.Slices ![50000, 0] S50000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S100000x128_d0 : Shape.Concatenates [S50000x128, S50000x128] S100000x128 0
  bcast_S50000_S50000x1_0 : S50000.BroadcastsInDim S50000x1 (![0] : Fin 1 → Fin S50000x1.rank)
  concatenates_S50000x1_S50000x1_S100000x1_d0 : Shape.Concatenates [S50000x1, S50000x1] S100000x1 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  slices_S100000x64_S50000x64_0_0 : S100000x64.Slices ![0, 0] S50000x64
  slices_S100000x64_S50000x64_50000_0 : S100000x64.Slices ![50000, 0] S50000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  dot_S10000x64_S64x128_S10000x128_1_0_0_1_n_n_wf : DotDims.WF S10000x64 S64x128 S10000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v82) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v87) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v88) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v89) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v92) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v93) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v152) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v157) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v158) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v159) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S800000x64 : Shape := ⟨2, ![800000, 64]⟩
abbrev S1x64 : Shape := ⟨2, ![1, 64]⟩

abbrev nBuf : Space → Nat
  | .hbm => 244
  | .vmem => 0
  | .smem => 0
  | _ => 0

abbrev hbmTy0_0 (i : Nat) : BufTy := match i % 128 with
  | 0 => ⟨S50000x64, .f32⟩
  | 1 => ⟨S2x800000, .i32⟩
  | 2 => ⟨S50000x64, .f32⟩
  | 3 => ⟨S2x800000, .i32⟩
  | 4 => ⟨S64x128, .f32⟩
  | 5 => ⟨S128, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000, .f32⟩
  | 63 => ⟨S50000x1, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x1, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x64, .f32⟩

abbrev hbmTy0_1 (i : Nat) : BufTy := match i % 128 with
  | 0 => ⟨S50000x128, .f32⟩
  | 1 => ⟨S50000x128, .f32⟩
  | 2 => ⟨S50000x64, .f32⟩
  | 3 => ⟨S_, .f32⟩
  | 4 => ⟨S800000, .f32⟩
  | 5 => ⟨S_, .f32⟩
  | 6 => ⟨S50000, .f32⟩
  | 7 => ⟨S800000x1, .i32⟩
  | 8 => ⟨S50000, .f32⟩
  | 9 => ⟨S_, .f32⟩
  | 10 => ⟨S50000, .f32⟩
  | 11 => ⟨S50000, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S800000x1, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000, .f32⟩
  | 49 => ⟨S50000x1, .f32⟩
  | 50 => ⟨S50000x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S_, .f32⟩
  | 57 => ⟨S50000x64, .f32⟩
  | 58 => ⟨S50000x64, .f32⟩
  | 59 => ⟨S50000x64, .f32⟩
  | 60 => ⟨S_, .f32⟩
  | 61 => ⟨S800000, .f32⟩
  | 62 => ⟨S_, .f32⟩
  | 63 => ⟨S50000, .f32⟩
  | 64 => ⟨S800000x1, .i32⟩
  | 65 => ⟨S50000, .f32⟩
  | 66 => ⟨S_, .f32⟩
  | 67 => ⟨S50000, .f32⟩
  | 68 => ⟨S50000, .f32⟩
  | 69 => ⟨S50000, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S800000x1, .f32⟩
  | 99 => ⟨S800000x64, .f32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S50000, .f32⟩
  | 106 => ⟨S50000x1, .f32⟩
  | 107 => ⟨S50000x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call0_cst : Ref sig .tc := ⟨.hbm, 70, rfl⟩
abbrev main_call0_v0 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_call1_cst : Ref sig .tc := ⟨.hbm, 127, rfl⟩
abbrev main_call1_v0 : Ref sig .tc := ⟨.hbm, 128, rfl⟩
abbrev main_v97 : Ref sig .tc := ⟨.hbm, 129, rfl⟩
abbrev main_v98 : Ref sig .tc := ⟨.hbm, 130, rfl⟩
abbrev main_cst_18 : Ref sig .tc := ⟨.hbm, 131, rfl⟩
abbrev main_v99 : Ref sig .tc := ⟨.hbm, 132, rfl⟩
abbrev main_cst_19 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_20 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_21 : Ref sig .tc := ⟨.hbm, 141, rfl⟩
abbrev main_v106 : Ref sig .tc := ⟨.hbm, 142, rfl⟩
abbrev main_v107 : Ref sig .tc := ⟨.hbm, 143, rfl⟩
abbrev main_c_22 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_c_23 : Ref sig .tc := ⟨.hbm, 150, rfl⟩
abbrev main_v113 : Ref sig .tc := ⟨.hbm, 151, rfl⟩
abbrev main_v114 : Ref sig .tc := ⟨.hbm, 152, rfl⟩
abbrev main_c_24 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_25 : Ref sig .tc := ⟨.hbm, 160, rfl⟩
abbrev main_v121 : Ref sig .tc := ⟨.hbm, 161, rfl⟩
abbrev main_v122 : Ref sig .tc := ⟨.hbm, 162, rfl⟩
abbrev main_c_26 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_27 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_call2_cst : Ref sig .tc := ⟨.hbm, 184, rfl⟩
abbrev main_call2_v0 : Ref sig .tc := ⟨.hbm, 185, rfl⟩
abbrev main_v142 : Ref sig .tc := ⟨.hbm, 186, rfl⟩
abbrev main_v143 : Ref sig .tc := ⟨.hbm, 187, rfl⟩
abbrev main_cst_28 : Ref sig .tc := ⟨.hbm, 188, rfl⟩
abbrev main_v144 : Ref sig .tc := ⟨.hbm, 189, rfl⟩
abbrev main_cst_29 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_30 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_c_31 : Ref sig .tc := ⟨.hbm, 198, rfl⟩
abbrev main_v151 : Ref sig .tc := ⟨.hbm, 199, rfl⟩
abbrev main_v152 : Ref sig .tc := ⟨.hbm, 200, rfl⟩
abbrev main_c_32 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_c_33 : Ref sig .tc := ⟨.hbm, 207, rfl⟩
abbrev main_v158 : Ref sig .tc := ⟨.hbm, 208, rfl⟩
abbrev main_v159 : Ref sig .tc := ⟨.hbm, 209, rfl⟩
abbrev main_c_34 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_c_35 : Ref sig .tc := ⟨.hbm, 217, rfl⟩
abbrev main_v166 : Ref sig .tc := ⟨.hbm, 218, rfl⟩
abbrev main_v167 : Ref sig .tc := ⟨.hbm, 219, rfl⟩
abbrev main_c_36 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_cst_37 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_call3_cst : Ref sig .tc := ⟨.hbm, 241, rfl⟩
abbrev main_call3_v0 : Ref sig .tc := ⟨.hbm, 242, rfl⟩
abbrev main_v187 : Ref sig .tc := ⟨.hbm, 243, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x128_S50000x128_1_0_0_1_n_n_wf : DotDims.WF S50000x64 S64x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The idealized kernel's run with its two results named: every weakly fair execution of @main terminates, nothing
  faulting, with each result array holding what the last stretch of host operations leaves there (the contents at the
  last boundary, `W9`), and the arguments as launched.  @main is nine segments — five stretches of host operations
  around four regions — and the launch theorem for such a chain gives, at the end, every unscoped buffer at the last
  boundary's contents; the post reads that at the two result arrays and at the eight arguments.
-/
import proofs.«160240_j4389456577462_1_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments unchanged. -/
theorem run : θ_run defs (onTc (τ := τ) (main (F := F))) ⟨m, fun _ => 0, ρ⟩ (fun r => ∀ c : Dev nD,
      r.2.mem ((c.tc : Thread nD τ).loc main_v160) = W9 m ρ c (Proc.devRef .tc main_v160)
      ∧ r.2.mem ((c.tc : Thread nD τ).loc main_v161) = W9 m ρ c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v160 (by decide)),
       h c _ (mem_uc main_v161 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.Gcn.KRun

end
-- ==== Proof.Layer.lean ====
/-
  One graph-convolution layer on one graph, as a function of whole arrays, written with the host's operations.

  For an edge list e (row 0 the sources, row 1 the targets, either possibly negative and then counted from the end):
    dinv(t)   = (1 + number of edges into t)^(-1/2)                         (the self-loop counted)
    coef(j)   = dinv(src j) * dinv(dst j)
    agg(h)(t) = sum over edges j into t of h(src j, ·) * coef(j)
    layer     = max(agg(h) + dinv^2 * h + b, 0),   h = x W.
  The two programs compute exactly these arrays; they differ only in how h and the closing step are produced.
-/
import proofs.«160240_j4389456577462_1_alg».proof.Proof.Gen.ReferenceIdeal

set_option maxRecDepth 8192

noncomputable section

namespace Cert.Gcn

open Idealize.ShloMosaic Cert.ReferenceIdeal Cert.ReferenceIdeal.Gen

variable {F : FTy → Type} [FloatOps F]

/-- The sources: row 0 of the edge list. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The targets: row 1 of the edge list. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- Node numbers as a column of gather positions, a negative number counted from the end (50000 added). -/
def wrap (v : (⟨S800000, .i32⟩ : BufTy).Contents (Elt F)) : (⟨S800000x1, .i32⟩ : BufTy).Contents (Elt F) :=
  broadcastInDim S800000x1 ![0] bcast_S800000_S800000x1_0 (select (cmpi .slt v (broadcastInDim S800000 ![] bcast_S_S800000 (constantI S_ 32 0#32))) (addi v (broadcastInDim S800000 ![] bcast_S_S800000 (constantI S_ 32 50000#32))) v)

/-- dinv: the inverse square root of one plus the number of edges into each node. -/
def dinv (d : (⟨S800000, .i32⟩ : BufTy).Contents (Elt F)) : (⟨S50000, .f32⟩ : BufTy).Contents (Elt F) :=
  Host.rsqrt (addf (Host.scatterAdd scatter_S50000_S800000x1_S800000_n_0_0_1 (broadcastInDim S50000 ![] bcast_S_S50000 (constant S_ .f32 0x00000000#32)) (broadcastInDim S800000x1 ![0] bcast_S800000_S800000x1_0 d) (broadcastInDim S800000 ![] bcast_S_S800000 (constant S_ .f32 0x3F800000#32))) (broadcastInDim S50000 ![] bcast_S_S50000 (constant S_ .f32 0x3F800000#32)))

/-- coef: per edge, dinv at its source times dinv at its target. -/
def coef (s d : (⟨S800000, .i32⟩ : BufTy).Contents (Elt F)) : (⟨S800000, .f32⟩ : BufTy).Contents (Elt F) :=
  mulf (Host.gather gather_S50000_S800000x1_S800000_n_0_n_n_0_1_1 (dinv (F := F) d) (wrap (F := F) s)) (Host.gather gather_S50000_S800000x1_S800000_n_0_n_n_0_1_1 (dinv (F := F) d) (wrap (F := F) d))

/-- The neighbours' aggregate of a 128-wide feature array. -/
def agg128 (h : (⟨S50000x128, .f32⟩ : BufTy).Contents (Elt F)) (s d : (⟨S800000, .i32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 d) (mulf (Host.gather gather_S50000x128_S800000x1_S800000x128_1_0_n_n_0_1_1128 h (wrap (F := F) s)) (broadcastInDim S800000x128 ![0, 1] bcast_S800000x1_S800000x128_0_1 (broadcastInDim S800000x1 ![0] bcast_S800000_S800000x1_0 (coef (F := F) s d))))

/-- The neighbours' aggregate of a 64-wide feature array. -/
def agg64 (h : (⟨S50000x64, .f32⟩ : BufTy).Contents (Elt F)) (s d : (⟨S800000, .i32⟩ : BufTy).Contents (Elt F)) : (⟨S50000x64, .f32⟩ : BufTy).Contents (Elt F) :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 d) (mulf (Host.gather gather_S50000x64_S800000x1_S800000x64_1_0_n_n_0_1_164 h (wrap (F := F) s)) (broadcastInDim S800000x64 ![0, 1] bcast_S800000x1_S800000x64_0_1 (broadcastInDim S800000x1 ![0] bcast_S800000_S800000x1_0 (coef (F := F) s d))))

/-- The closing step on a 128-wide array: max(a + dinv^2 * h + b, 0). -/
def close128 (a h : (⟨S50000x128, .f32⟩ : BufTy).Contents (Elt F)) (b : (⟨S128, .f32⟩ : BufTy).Contents (Elt F)) (d : (⟨S800000, .i32⟩ : BufTy).Contents (Elt F)) : (⟨S50000x128, .f32⟩ : BufTy).Contents (Elt F) :=
  maximumf (addf (addf a (mulf (broadcastInDim S50000x128 ![0, 1] bcast_S50000x1_S50000x128_0_1 (broadcastInDim S50000x1 ![0] bcast_S50000_S50000x1_0 (mulf (dinv (F := F) d) (dinv (F := F) d)))) h)) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The closing step on a 64-wide array. -/
def close64 (a h : (⟨S50000x64, .f32⟩ : BufTy).Contents (Elt F)) (b : (⟨S64, .f32⟩ : BufTy).Contents (Elt F)) (d : (⟨S800000, .i32⟩ : BufTy).Contents (Elt F)) : (⟨S50000x64, .f32⟩ : BufTy).Contents (Elt F) :=
  maximumf (addf (addf a (mulf (broadcastInDim S50000x64 ![0, 1] bcast_S50000x1_S50000x64_0_1 (broadcastInDim S50000x1 ![0] bcast_S50000_S50000x1_0 (mulf (dinv (F := F) d) (dinv (F := F) d)))) h)) (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- The first layer (64 -> 128) on one graph, from its product h = x W. -/
def layer128 (h : (⟨S50000x128, .f32⟩ : BufTy).Contents (Elt F)) (b : (⟨S128, .f32⟩ : BufTy).Contents (Elt F)) (s d : (⟨S800000, .i32⟩ : BufTy).Contents (Elt F)) : (⟨S50000x128, .f32⟩ : BufTy).Contents (Elt F) :=
  close128 (agg128 (F := F) h s d) h b d

/-- The second layer (128 -> 64) on one graph, from its product h = x W. -/
def layer64 (h : (⟨S50000x64, .f32⟩ : BufTy).Contents (Elt F)) (b : (⟨S64, .f32⟩ : BufTy).Contents (Elt F)) (s d : (⟨S800000, .i32⟩ : BufTy).Contents (Elt F)) : (⟨S50000x64, .f32⟩ : BufTy).Contents (Elt F) :=
  close64 (agg64 (F := F) h s d) h b d

/-- The host's 64 -> 128 product. -/
def dot1 (x : (⟨S50000x64, .f32⟩ : BufTy).Contents (Elt F)) (W : (⟨S64x128, .f32⟩ : BufTy).Contents (Elt F)) : (⟨S50000x128, .f32⟩ : BufTy).Contents (Elt F) :=
  Host.dotGeneral dot_S50000x64_S64x128_S50000x128_1_0_0_1_n_n none x W

/-- The host's 128 -> 64 product. -/
def dot2 (x : (⟨S50000x128, .f32⟩ : BufTy).Contents (Elt F)) (W : (⟨S128x64, .f32⟩ : BufTy).Contents (Elt F)) : (⟨S50000x64, .f32⟩ : BufTy).Contents (Elt F) :=
  Host.dotGeneral dot_S50000x128_S128x64_S50000x64_1_0_0_1_n_n none x W

/-- Both layers on one graph: the whole network's result for that graph. -/
def net (x : (⟨S50000x64, .f32⟩ : BufTy).Contents (Elt F)) (e : (⟨S2x800000, .i32⟩ : BufTy).Contents (Elt F)) (W1 : (⟨S64x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) : (⟨S50000x64, .f32⟩ : BufTy).Contents (Elt F) :=
  layer64 (dot2 (layer128 (dot1 x W1) b1 (srcOf (F := F) e) (dstOf (F := F) e)) W2) b2 (srcOf (F := F) e) (dstOf (F := F) e)

end Cert.Gcn

end
-- ==== Proof.KHost.lean ====
/-
  The idealized kernel's host side, stretch by stretch.  @main is five stretches of host operations around four
  regions; `W1 … W9` are the buffer contents at the boundaries.  Here each array a region reads is written as the
  host operations' term over the previous region's output and over a few arrays computed once, before the first region,
  and carried unchanged to every later boundary: the sources and targets of both edge lists and the two dinv vectors.
-/
import proofs.«160240_j4389456577462_1_alg».proof.Proof.Gen.KernelIdeal.Frame
import proofs.«160240_j4389456577462_1_alg».proof.Proof.Layer
import Idealize.ShloMosaic.Lib.StableHlo.Run

set_option maxRecDepth 16384
set_option maxHeartbeats 40000000

noncomputable section

namespace Cert.Gcn.KHost

open Cert.KernelIdeal Cert.KernelIdeal.Gen Cert.Gcn
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- Two arrays joined along an axis: equal pieces give equal joins (rewriting goes through the pieces). -/
theorem concat2_congr {α : Type} {S S1 S2 : Shape} {ax : Fin S.rank} {a a' : S1.Idx → α} {b b' : S2.Idx → α}
    (h : Shape.Concatenates [S1, S2] S ax) (ha : a = a') (hb : b = b') :
    concatenate S ax [⟨S1, a⟩, ⟨S2, b⟩] h = concatenate S ax [⟨S1, a'⟩, ⟨S2, b'⟩] h := by
  subst ha hb; rfl

attribute [local congr] concat2_congr

/-! ## Before the first region: the arrays computed once -/

theorem w1_v1 : W1 m ρ c (Proc.devRef .tc main_v1) = srcOf (F := F) (m ((c : Thread nD τ).loc main_arg1)) := by
  show StableHlo.after hostOps0 (W0 m ρ c) (Proc.devRef .tc main_v1) = _
  after_results_simp <;> rfl
theorem w1_v3 : W1 m ρ c (Proc.devRef .tc main_v3) = dstOf (F := F) (m ((c : Thread nD τ).loc main_arg1)) := by
  show StableHlo.after hostOps0 (W0 m ρ c) (Proc.devRef .tc main_v3) = _
  after_results_simp <;> rfl
theorem w1_v5 : W1 m ρ c (Proc.devRef .tc main_v5) = srcOf (F := F) (m ((c : Thread nD τ).loc main_arg3)) := by
  show StableHlo.after hostOps0 (W0 m ρ c) (Proc.devRef .tc main_v5) = _
  after_results_simp <;> rfl
theorem w1_v7 : W1 m ρ c (Proc.devRef .tc main_v7) = dstOf (F := F) (m ((c : Thread nD τ).loc main_arg3)) := by
  show StableHlo.after hostOps0 (W0 m ρ c) (Proc.devRef .tc main_v7) = _
  after_results_simp <;> rfl
theorem w1_v14 : W1 m ρ c (Proc.devRef .tc main_v14) = dinv (F := F) (dstOf (F := F) (m ((c : Thread nD τ).loc main_arg1))) := by
  show StableHlo.after hostOps0 (W0 m ρ c) (Proc.devRef .tc main_v14) = _
  after_results_simp <;> rfl
theorem w1_v21 : W1 m ρ c (Proc.devRef .tc main_v21) = dinv (F := F) (dstOf (F := F) (m ((c : Thread nD τ).loc main_arg3))) := by
  show StableHlo.after hostOps0 (W0 m ρ c) (Proc.devRef .tc main_v21) = _
  after_results_simp <;> rfl

/-- The first product's left operand: the two graphs' features stacked. -/
theorem w1_v22 : W1 m ρ c (Proc.devRef .tc main_v22)
    = concatenate S100000x64 0 [⟨S50000x64, (m ((c : Thread nD τ).loc main_arg0))⟩, ⟨S50000x64, (m ((c : Thread nD τ).loc main_arg2))⟩] concatenates_S50000x64_S50000x64_S100000x64_d0 := by
  show StableHlo.after hostOps0 (W0 m ρ c) (Proc.devRef .tc main_v22) = _
  after_results_simp <;> rfl

theorem w1_arg4 : W1 m ρ c (Proc.devRef .tc main_arg4) = (m ((c : Thread nD τ).loc main_arg4)) := by
  show StableHlo.after hostOps0 (W0 m ρ c) (Proc.devRef .tc main_arg4) = _
  after_results_simp <;> rfl
theorem w1_arg5 : W1 m ρ c (Proc.devRef .tc main_arg5) = (m ((c : Thread nD τ).loc main_arg5)) := by
  show StableHlo.after hostOps0 (W0 m ρ c) (Proc.devRef .tc main_arg5) = _
  after_results_simp <;> rfl
theorem w1_arg6 : W1 m ρ c (Proc.devRef .tc main_arg6) = (m ((c : Thread nD τ).loc main_arg6)) := by
  show StableHlo.after hostOps0 (W0 m ρ c) (Proc.devRef .tc main_arg6) = _
  after_results_simp <;> rfl
theorem w1_arg7 : W1 m ρ c (Proc.devRef .tc main_arg7) = (m ((c : Thread nD τ).loc main_arg7)) := by
  show StableHlo.after hostOps0 (W0 m ρ c) (Proc.devRef .tc main_arg7) = _
  after_results_simp <;> rfl

/-! ## Carried: no later stretch and no region writes these arrays -/

theorem w2_v1' : W2 m ρ c (Proc.devRef .tc main_v1) = W1 m ρ c (Proc.devRef .tc main_v1) := W2_of_ne m ρ c main_v1 (by decide)
theorem w3_v1' : W3 m ρ c (Proc.devRef .tc main_v1) = W1 m ρ c (Proc.devRef .tc main_v1) :=
  (show StableHlo.after hostOps1 (W2 m ρ c) (Proc.devRef .tc main_v1) = W2 m ρ c (Proc.devRef .tc main_v1) by after_results_simp).trans (w2_v1' m ρ c)
theorem w4_v1' : W4 m ρ c (Proc.devRef .tc main_v1) = W1 m ρ c (Proc.devRef .tc main_v1) := (W4_of_ne m ρ c main_v1 (by decide)).trans (w3_v1' m ρ c)
theorem w5_v1' : W5 m ρ c (Proc.devRef .tc main_v1) = W1 m ρ c (Proc.devRef .tc main_v1) :=
  (show StableHlo.after hostOps2 (W4 m ρ c) (Proc.devRef .tc main_v1) = W4 m ρ c (Proc.devRef .tc main_v1) by after_results_simp).trans (w4_v1' m ρ c)
theorem w6_v1' : W6 m ρ c (Proc.devRef .tc main_v1) = W1 m ρ c (Proc.devRef .tc main_v1) := (W6_of_ne m ρ c main_v1 (by decide)).trans (w5_v1' m ρ c)
theorem w2_v3' : W2 m ρ c (Proc.devRef .tc main_v3) = W1 m ρ c (Proc.devRef .tc main_v3) := W2_of_ne m ρ c main_v3 (by decide)
theorem w3_v3' : W3 m ρ c (Proc.devRef .tc main_v3) = W1 m ρ c (Proc.devRef .tc main_v3) :=
  (show StableHlo.after hostOps1 (W2 m ρ c) (Proc.devRef .tc main_v3) = W2 m ρ c (Proc.devRef .tc main_v3) by after_results_simp).trans (w2_v3' m ρ c)
theorem w4_v3' : W4 m ρ c (Proc.devRef .tc main_v3) = W1 m ρ c (Proc.devRef .tc main_v3) := (W4_of_ne m ρ c main_v3 (by decide)).trans (w3_v3' m ρ c)
theorem w5_v3' : W5 m ρ c (Proc.devRef .tc main_v3) = W1 m ρ c (Proc.devRef .tc main_v3) :=
  (show StableHlo.after hostOps2 (W4 m ρ c) (Proc.devRef .tc main_v3) = W4 m ρ c (Proc.devRef .tc main_v3) by after_results_simp).trans (w4_v3' m ρ c)
theorem w6_v3' : W6 m ρ c (Proc.devRef .tc main_v3) = W1 m ρ c (Proc.devRef .tc main_v3) := (W6_of_ne m ρ c main_v3 (by decide)).trans (w5_v3' m ρ c)
theorem w2_v5' : W2 m ρ c (Proc.devRef .tc main_v5) = W1 m ρ c (Proc.devRef .tc main_v5) := W2_of_ne m ρ c main_v5 (by decide)
theorem w3_v5' : W3 m ρ c (Proc.devRef .tc main_v5) = W1 m ρ c (Proc.devRef .tc main_v5) :=
  (show StableHlo.after hostOps1 (W2 m ρ c) (Proc.devRef .tc main_v5) = W2 m ρ c (Proc.devRef .tc main_v5) by after_results_simp).trans (w2_v5' m ρ c)
theorem w4_v5' : W4 m ρ c (Proc.devRef .tc main_v5) = W1 m ρ c (Proc.devRef .tc main_v5) := (W4_of_ne m ρ c main_v5 (by decide)).trans (w3_v5' m ρ c)
theorem w5_v5' : W5 m ρ c (Proc.devRef .tc main_v5) = W1 m ρ c (Proc.devRef .tc main_v5) :=
  (show StableHlo.after hostOps2 (W4 m ρ c) (Proc.devRef .tc main_v5) = W4 m ρ c (Proc.devRef .tc main_v5) by after_results_simp).trans (w4_v5' m ρ c)
theorem w6_v5' : W6 m ρ c (Proc.devRef .tc main_v5) = W1 m ρ c (Proc.devRef .tc main_v5) := (W6_of_ne m ρ c main_v5 (by decide)).trans (w5_v5' m ρ c)
theorem w2_v7' : W2 m ρ c (Proc.devRef .tc main_v7) = W1 m ρ c (Proc.devRef .tc main_v7) := W2_of_ne m ρ c main_v7 (by decide)
theorem w3_v7' : W3 m ρ c (Proc.devRef .tc main_v7) = W1 m ρ c (Proc.devRef .tc main_v7) :=
  (show StableHlo.after hostOps1 (W2 m ρ c) (Proc.devRef .tc main_v7) = W2 m ρ c (Proc.devRef .tc main_v7) by after_results_simp).trans (w2_v7' m ρ c)
theorem w4_v7' : W4 m ρ c (Proc.devRef .tc main_v7) = W1 m ρ c (Proc.devRef .tc main_v7) := (W4_of_ne m ρ c main_v7 (by decide)).trans (w3_v7' m ρ c)
theorem w5_v7' : W5 m ρ c (Proc.devRef .tc main_v7) = W1 m ρ c (Proc.devRef .tc main_v7) :=
  (show StableHlo.after hostOps2 (W4 m ρ c) (Proc.devRef .tc main_v7) = W4 m ρ c (Proc.devRef .tc main_v7) by after_results_simp).trans (w4_v7' m ρ c)
theorem w6_v7' : W6 m ρ c (Proc.devRef .tc main_v7) = W1 m ρ c (Proc.devRef .tc main_v7) := (W6_of_ne m ρ c main_v7 (by decide)).trans (w5_v7' m ρ c)
theorem w2_v14' : W2 m ρ c (Proc.devRef .tc main_v14) = W1 m ρ c (Proc.devRef .tc main_v14) := W2_of_ne m ρ c main_v14 (by decide)
theorem w3_v14' : W3 m ρ c (Proc.devRef .tc main_v14) = W1 m ρ c (Proc.devRef .tc main_v14) :=
  (show StableHlo.after hostOps1 (W2 m ρ c) (Proc.devRef .tc main_v14) = W2 m ρ c (Proc.devRef .tc main_v14) by after_results_simp).trans (w2_v14' m ρ c)
theorem w4_v14' : W4 m ρ c (Proc.devRef .tc main_v14) = W1 m ρ c (Proc.devRef .tc main_v14) := (W4_of_ne m ρ c main_v14 (by decide)).trans (w3_v14' m ρ c)
theorem w5_v14' : W5 m ρ c (Proc.devRef .tc main_v14) = W1 m ρ c (Proc.devRef .tc main_v14) :=
  (show StableHlo.after hostOps2 (W4 m ρ c) (Proc.devRef .tc main_v14) = W4 m ρ c (Proc.devRef .tc main_v14) by after_results_simp).trans (w4_v14' m ρ c)
theorem w6_v14' : W6 m ρ c (Proc.devRef .tc main_v14) = W1 m ρ c (Proc.devRef .tc main_v14) := (W6_of_ne m ρ c main_v14 (by decide)).trans (w5_v14' m ρ c)
theorem w2_v21' : W2 m ρ c (Proc.devRef .tc main_v21) = W1 m ρ c (Proc.devRef .tc main_v21) := W2_of_ne m ρ c main_v21 (by decide)
theorem w3_v21' : W3 m ρ c (Proc.devRef .tc main_v21) = W1 m ρ c (Proc.devRef .tc main_v21) :=
  (show StableHlo.after hostOps1 (W2 m ρ c) (Proc.devRef .tc main_v21) = W2 m ρ c (Proc.devRef .tc main_v21) by after_results_simp).trans (w2_v21' m ρ c)
theorem w4_v21' : W4 m ρ c (Proc.devRef .tc main_v21) = W1 m ρ c (Proc.devRef .tc main_v21) := (W4_of_ne m ρ c main_v21 (by decide)).trans (w3_v21' m ρ c)
theorem w5_v21' : W5 m ρ c (Proc.devRef .tc main_v21) = W1 m ρ c (Proc.devRef .tc main_v21) :=
  (show StableHlo.after hostOps2 (W4 m ρ c) (Proc.devRef .tc main_v21) = W4 m ρ c (Proc.devRef .tc main_v21) by after_results_simp).trans (w4_v21' m ρ c)
theorem w6_v21' : W6 m ρ c (Proc.devRef .tc main_v21) = W1 m ρ c (Proc.devRef .tc main_v21) := (W6_of_ne m ρ c main_v21 (by decide)).trans (w5_v21' m ρ c)
theorem w2_arg5' : W2 m ρ c (Proc.devRef .tc main_arg5) = W1 m ρ c (Proc.devRef .tc main_arg5) := W2_of_ne m ρ c main_arg5 (by decide)
theorem w3_arg5' : W3 m ρ c (Proc.devRef .tc main_arg5) = W1 m ρ c (Proc.devRef .tc main_arg5) :=
  (show StableHlo.after hostOps1 (W2 m ρ c) (Proc.devRef .tc main_arg5) = W2 m ρ c (Proc.devRef .tc main_arg5) by after_results_simp).trans (w2_arg5' m ρ c)
theorem w4_arg5' : W4 m ρ c (Proc.devRef .tc main_arg5) = W1 m ρ c (Proc.devRef .tc main_arg5) := (W4_of_ne m ρ c main_arg5 (by decide)).trans (w3_arg5' m ρ c)
theorem w5_arg5' : W5 m ρ c (Proc.devRef .tc main_arg5) = W1 m ρ c (Proc.devRef .tc main_arg5) :=
  (show StableHlo.after hostOps2 (W4 m ρ c) (Proc.devRef .tc main_arg5) = W4 m ρ c (Proc.devRef .tc main_arg5) by after_results_simp).trans (w4_arg5' m ρ c)
theorem w6_arg5' : W6 m ρ c (Proc.devRef .tc main_arg5) = W1 m ρ c (Proc.devRef .tc main_arg5) := (W6_of_ne m ρ c main_arg5 (by decide)).trans (w5_arg5' m ρ c)
theorem w2_arg6' : W2 m ρ c (Proc.devRef .tc main_arg6) = W1 m ρ c (Proc.devRef .tc main_arg6) := W2_of_ne m ρ c main_arg6 (by decide)
theorem w3_arg6' : W3 m ρ c (Proc.devRef .tc main_arg6) = W1 m ρ c (Proc.devRef .tc main_arg6) :=
  (show StableHlo.after hostOps1 (W2 m ρ c) (Proc.devRef .tc main_arg6) = W2 m ρ c (Proc.devRef .tc main_arg6) by after_results_simp).trans (w2_arg6' m ρ c)
theorem w4_arg6' : W4 m ρ c (Proc.devRef .tc main_arg6) = W1 m ρ c (Proc.devRef .tc main_arg6) := (W4_of_ne m ρ c main_arg6 (by decide)).trans (w3_arg6' m ρ c)
theorem w5_arg6' : W5 m ρ c (Proc.devRef .tc main_arg6) = W1 m ρ c (Proc.devRef .tc main_arg6) :=
  (show StableHlo.after hostOps2 (W4 m ρ c) (Proc.devRef .tc main_arg6) = W4 m ρ c (Proc.devRef .tc main_arg6) by after_results_simp).trans (w4_arg6' m ρ c)
theorem w2_arg7' : W2 m ρ c (Proc.devRef .tc main_arg7) = W1 m ρ c (Proc.devRef .tc main_arg7) := W2_of_ne m ρ c main_arg7 (by decide)
theorem w3_arg7' : W3 m ρ c (Proc.devRef .tc main_arg7) = W1 m ρ c (Proc.devRef .tc main_arg7) :=
  (show StableHlo.after hostOps1 (W2 m ρ c) (Proc.devRef .tc main_arg7) = W2 m ρ c (Proc.devRef .tc main_arg7) by after_results_simp).trans (w2_arg7' m ρ c)
theorem w4_arg7' : W4 m ρ c (Proc.devRef .tc main_arg7) = W1 m ρ c (Proc.devRef .tc main_arg7) := (W4_of_ne m ρ c main_arg7 (by decide)).trans (w3_arg7' m ρ c)
theorem w5_arg7' : W5 m ρ c (Proc.devRef .tc main_arg7) = W1 m ρ c (Proc.devRef .tc main_arg7) :=
  (show StableHlo.after hostOps2 (W4 m ρ c) (Proc.devRef .tc main_arg7) = W4 m ρ c (Proc.devRef .tc main_arg7) by after_results_simp).trans (w4_arg7' m ρ c)
theorem w6_arg7' : W6 m ρ c (Proc.devRef .tc main_arg7) = W1 m ρ c (Proc.devRef .tc main_arg7) := (W6_of_ne m ρ c main_arg7 (by decide)).trans (w5_arg7' m ρ c)

/-! ## The carried arrays at the boundaries where they are read -/

theorem w2_v1 : W2 m ρ c (Proc.devRef .tc main_v1) = srcOf (F := F) (m ((c : Thread nD τ).loc main_arg1)) := (w2_v1' m ρ c).trans (w1_v1 m ρ c)
theorem w6_v1 : W6 m ρ c (Proc.devRef .tc main_v1) = srcOf (F := F) (m ((c : Thread nD τ).loc main_arg1)) := (w6_v1' m ρ c).trans (w1_v1 m ρ c)
theorem w2_v3 : W2 m ρ c (Proc.devRef .tc main_v3) = dstOf (F := F) (m ((c : Thread nD τ).loc main_arg1)) := (w2_v3' m ρ c).trans (w1_v3 m ρ c)
theorem w6_v3 : W6 m ρ c (Proc.devRef .tc main_v3) = dstOf (F := F) (m ((c : Thread nD τ).loc main_arg1)) := (w6_v3' m ρ c).trans (w1_v3 m ρ c)
theorem w2_v5 : W2 m ρ c (Proc.devRef .tc main_v5) = srcOf (F := F) (m ((c : Thread nD τ).loc main_arg3)) := (w2_v5' m ρ c).trans (w1_v5 m ρ c)
theorem w6_v5 : W6 m ρ c (Proc.devRef .tc main_v5) = srcOf (F := F) (m ((c : Thread nD τ).loc main_arg3)) := (w6_v5' m ρ c).trans (w1_v5 m ρ c)
theorem w2_v7 : W2 m ρ c (Proc.devRef .tc main_v7) = dstOf (F := F) (m ((c : Thread nD τ).loc main_arg3)) := (w2_v7' m ρ c).trans (w1_v7 m ρ c)
theorem w6_v7 : W6 m ρ c (Proc.devRef .tc main_v7) = dstOf (F := F) (m ((c : Thread nD τ).loc main_arg3)) := (w6_v7' m ρ c).trans (w1_v7 m ρ c)
theorem w2_v14 : W2 m ρ c (Proc.devRef .tc main_v14) = dinv (F := F) (dstOf (F := F) (m ((c : Thread nD τ).loc main_arg1))) := (w2_v14' m ρ c).trans (w1_v14 m ρ c)
theorem w6_v14 : W6 m ρ c (Proc.devRef .tc main_v14) = dinv (F := F) (dstOf (F := F) (m ((c : Thread nD τ).loc main_arg1))) := (w6_v14' m ρ c).trans (w1_v14 m ρ c)
theorem w2_v21 : W2 m ρ c (Proc.devRef .tc main_v21) = dinv (F := F) (dstOf (F := F) (m ((c : Thread nD τ).loc main_arg3))) := (w2_v21' m ρ c).trans (w1_v21 m ρ c)
theorem w6_v21 : W6 m ρ c (Proc.devRef .tc main_v21) = dinv (F := F) (dstOf (F := F) (m ((c : Thread nD τ).loc main_arg3))) := (w6_v21' m ρ c).trans (w1_v21 m ρ c)
theorem w2_arg5 : W2 m ρ c (Proc.devRef .tc main_arg5) = (m ((c : Thread nD τ).loc main_arg5)) := (w2_arg5' m ρ c).trans (w1_arg5 m ρ c)
theorem w5_arg6 : W5 m ρ c (Proc.devRef .tc main_arg6) = (m ((c : Thread nD τ).loc main_arg6)) := (w5_arg6' m ρ c).trans (w1_arg6 m ρ c)
theorem w6_arg7 : W6 m ρ c (Proc.devRef .tc main_arg7) = (m ((c : Thread nD τ).loc main_arg7)) := (w6_arg7' m ρ c).trans (w1_arg7 m ρ c)

set_option quotPrecheck false

local notation "s1" => srcOf (F := F) (m ((c : Thread nD τ).loc main_arg1))
local notation "d1" => dstOf (F := F) (m ((c : Thread nD τ).loc main_arg1))
local notation "s2" => srcOf (F := F) (m ((c : Thread nD τ).loc main_arg3))
local notation "d2" => dstOf (F := F) (m ((c : Thread nD τ).loc main_arg3))

/-! ## What the second region (the first layer's closing step) reads -/

/-- The aggregates of both graphs stacked, each over its half of the first product. -/
theorem w3_v82 : W3 m ρ c (Proc.devRef .tc main_v82)
    = concatenate S100000x128 0
        [⟨S50000x128, agg128 (F := F) (extractStridedSlice S50000x128 ![0, 0] (W2 m ρ c (Proc.devRef .tc main_v23)) slices_S100000x128_S50000x128_0_0) s1 d1⟩,
         ⟨S50000x128, agg128 (F := F) (extractStridedSlice S50000x128 ![50000, 0] (W2 m ρ c (Proc.devRef .tc main_v23)) slices_S100000x128_S50000x128_50000_0) s2 d2⟩]
        concatenates_S50000x128_S50000x128_S100000x128_d0 := by
  show StableHlo.after hostOps1 (W2 m ρ c) (Proc.devRef .tc main_v82) = _
  after_results_simp
  rw [w2_v1 m ρ c, w2_v3 m ρ c, w2_v5 m ρ c, w2_v7 m ρ c, w2_v14 m ρ c, w2_v21 m ρ c]
  rfl

theorem w3_v23 : W3 m ρ c (Proc.devRef .tc main_v23) = W2 m ρ c (Proc.devRef .tc main_v23) := by
  show StableHlo.after hostOps1 (W2 m ρ c) (Proc.devRef .tc main_v23) = _
  after_results_simp

/-- The self-loop weights dinv^2 of both graphs, each kept as a column, stacked. -/
theorem w3_v87 : W3 m ρ c (Proc.devRef .tc main_v87)
    = concatenate S100000x1 0
        [⟨S50000x1, broadcastInDim S50000x1 ![0] bcast_S50000_S50000x1_0 (mulf (dinv (F := F) d1) (dinv (F := F) d1))⟩,
         ⟨S50000x1, broadcastInDim S50000x1 ![0] bcast_S50000_S50000x1_0 (mulf (dinv (F := F) d2) (dinv (F := F) d2))⟩]
        concatenates_S50000x1_S50000x1_S100000x1_d0 := by
  show StableHlo.after hostOps1 (W2 m ρ c) (Proc.devRef .tc main_v87) = _
  after_results_simp
  rw [w2_v14 m ρ c, w2_v21 m ρ c]

/-- The first bias as a one-row matrix. -/
theorem w3_v88 : W3 m ρ c (Proc.devRef .tc main_v88) = shapeCast S1x128 (m ((c : Thread nD τ).loc main_arg5)) shapeCasts_S128_S1x128 := by
  show StableHlo.after hostOps1 (W2 m ρ c) (Proc.devRef .tc main_v88) = _
  after_results_simp
  rw [w2_arg5 m ρ c]
  rfl

/-! ## What the third region (the second product) reads -/

theorem w5_v92 : W5 m ρ c (Proc.devRef .tc main_v92)
    = concatenate S100000x128 0
        [⟨S50000x128, extractStridedSlice S50000x128 ![0, 0] (W4 m ρ c (Proc.devRef .tc main_v89)) slices_S100000x128_S50000x128_0_0⟩,
         ⟨S50000x128, extractStridedSlice S50000x128 ![50000, 0] (W4 m ρ c (Proc.devRef .tc main_v89)) slices_S100000x128_S50000x128_50000_0⟩]
        concatenates_S50000x128_S50000x128_S100000x128_d0 := by
  show StableHlo.after hostOps2 (W4 m ρ c) (Proc.devRef .tc main_v92) = _
  after_results_simp <;> rfl

/-! ## What the fourth region (the second layer's closing step) reads -/

theorem w7_v152 : W7 m ρ c (Proc.devRef .tc main_v152)
    = concatenate S100000x64 0
        [⟨S50000x64, agg64 (F := F) (extractStridedSlice S50000x64 ![0, 0] (W6 m ρ c (Proc.devRef .tc main_v93)) slices_S100000x64_S50000x64_0_0) s1 d1⟩,
         ⟨S50000x64, agg64 (F := F) (extractStridedSlice S50000x64 ![50000, 0] (W6 m ρ c (Proc.devRef .tc main_v93)) slices_S100000x64_S50000x64_50000_0) s2 d2⟩]
        concatenates_S50000x64_S50000x64_S100000x64_d0 := by
  show StableHlo.after hostOps3 (W6 m ρ c) (Proc.devRef .tc main_v152) = _
  after_results_simp
  rw [w6_v1 m ρ c, w6_v3 m ρ c, w6_v5 m ρ c, w6_v7 m ρ c, w6_v14 m ρ c, w6_v21 m ρ c]
  rfl

theorem w7_v93 : W7 m ρ c (Proc.devRef .tc main_v93) = W6 m ρ c (Proc.devRef .tc main_v93) := by
  show StableHlo.after hostOps3 (W6 m ρ c) (Proc.devRef .tc main_v93) = _
  after_results_simp

theorem w7_v157 : W7 m ρ c (Proc.devRef .tc main_v157)
    = concatenate S100000x1 0
        [⟨S50000x1, broadcastInDim S50000x1 ![0] bcast_S50000_S50000x1_0 (mulf (dinv (F := F) d1) (dinv (F := F) d1))⟩,
         ⟨S50000x1, broadcastInDim S50000x1 ![0] bcast_S50000_S50000x1_0 (mulf (dinv (F := F) d2) (dinv (F := F) d2))⟩]
        concatenates_S50000x1_S50000x1_S100000x1_d0 := by
  show StableHlo.after hostOps3 (W6 m ρ c) (Proc.devRef .tc main_v157) = _
  after_results_simp
  rw [w6_v14 m ρ c, w6_v21 m ρ c]

theorem w7_v158 : W7 m ρ c (Proc.devRef .tc main_v158) = shapeCast S1x64 (m ((c : Thread nD τ).loc main_arg7)) shapeCasts_S64_S1x64 := by
  show StableHlo.after hostOps3 (W6 m ρ c) (Proc.devRef .tc main_v158) = _
  after_results_simp
  rw [w6_arg7 m ρ c]
  rfl

/-! ## After the last region: the two results are the two halves of its output -/

theorem w9_v160 : W9 m ρ c (Proc.devRef .tc main_v160)
    = extractStridedSlice S50000x64 ![0, 0] (W8 m ρ c (Proc.devRef .tc main_v159)) slices_S100000x64_S50000x64_0_0 := by
  show StableHlo.after hostOps4 (W8 m ρ c) (Proc.devRef .tc main_v160) = _
  after_results_simp <;> rfl

theorem w9_v161 : W9 m ρ c (Proc.devRef .tc main_v161)
    = extractStridedSlice S50000x64 ![50000, 0] (W8 m ρ c (Proc.devRef .tc main_v159)) slices_S100000x64_S50000x64_50000_0 := by
  show StableHlo.after hostOps4 (W8 m ρ c) (Proc.devRef .tc main_v161) = _
  after_results_simp <;> rfl

end Cert.Gcn.KHost

end
-- ==== Proof.Spec.lean ====
/-
  The two dense steps of a graph-convolution layer, as functions of whole arrays over the extended reals.

  * `mmG X W`: the matrix product, entry (p, q) the sum over k of X(p, k) * W(k, q).
  * `finG A H D B`: the layer's closing step, entry (p, q) the larger of 0 and
    A(p, q) + D(p, 0) * H(p, q) + B(0, q)  — the neighbours' aggregate A, the node's own row of H scaled by its
    self-loop weight D (one number per row, kept as a column), the bias B (one number per column, kept as a row).
-/
import Idealize.ShloMosaic.PureOps.Ideal
import Idealize.ShloMosaic.Lib.ValueIdx

noncomputable section

namespace Cert.Gcn

open Idealize.ShloMosaic Idealize.ShloMosaic.ValueIdx

/-- The matrix product of an n x K array with a K x w array, entry by entry. -/
def mmG {n K w : ℕ} (X : (⟨2, ![n, K]⟩ : Shape).Idx → EReal) (W : (⟨2, ![K, w]⟩ : Shape).Idx → EReal) :
    (⟨2, ![n, w]⟩ : Shape).Idx → EReal :=
  fun i => ∑ k : Fin K, X (ix2 (i 0) k) * W (ix2 k (i 1))

/-- The closing step of a layer, entry by entry: max(A + D * H + B, 0), D a column and B a row. -/
def finG {n w : ℕ} (A H : (⟨2, ![n, w]⟩ : Shape).Idx → EReal) (D : (⟨2, ![n, 1]⟩ : Shape).Idx → EReal)
    (B : (⟨2, ![1, w]⟩ : Shape).Idx → EReal) : (⟨2, ![n, w]⟩ : Shape).Idx → EReal :=
  fun i => max (A i + D (ix2 (i 0) (0 : Fin 1)) * H i + B (ix2 (0 : Fin 1) (i 1))) 0

theorem mmG_apply {n K w : ℕ} (X : (⟨2, ![n, K]⟩ : Shape).Idx → EReal) (W : (⟨2, ![K, w]⟩ : Shape).Idx → EReal)
    (p : Fin n) (q : Fin w) : mmG X W (ix2 p q) = ∑ k : Fin K, X (ix2 p k) * W (ix2 k q) := rfl

theorem finG_apply {n w : ℕ} (A H : (⟨2, ![n, w]⟩ : Shape).Idx → EReal) (D : (⟨2, ![n, 1]⟩ : Shape).Idx → EReal)
    (B : (⟨2, ![1, w]⟩ : Shape).Idx → EReal) (p : Fin n) (q : Fin w) :
    finG A H D B (ix2 p q) = max (A (ix2 p q) + D (ix2 p (0 : Fin 1)) * H (ix2 p q) + B (ix2 (0 : Fin 1) q)) 0 := rfl

end Cert.Gcn

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«160240_j4389456577462_1_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.Region0.lean ====
/-
  The first dense step of the layer, as a whole array.  The grid has ten points; point t multiplies rows
  10000 t … 10000 t + 9999 of the [100000, 64] operand X by the [64, 128] operand W (the same W at every point) and
  writes the product back as the same rows of the [100000, 128] result.  Row r of the result lies in the block of
  point r / 10000, so after the ten write-backs the result holds, at entry (r, q), the sum over k < 64 of
  X(r, k) * W(k, q), for X and W as the region finds them.
-/
import proofs.«160240_j4389456577462_1_alg».proof.Proof.Gen.KernelIdeal.Frame
import proofs.«160240_j4389456577462_1_alg».proof.Proof.Spec
import proofs.«160240_j4389456577462_1_alg».proof.Proof.LibMatmulSum
import proofs.«160240_j4389456577462_1_alg».proof.Proof.LibPlainLists
import Idealize.ShloMosaic.Lib.Pipeline.Value
import Idealize.ShloMosaic.Lib.ValueIdx
import Idealize.ShloMosaic.PureOps.Ideal.Laws

noncomputable section

namespace Cert.Gcn.Region0

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as a constant function. -/
theorem zero_offsets : (![0, 0] : Fin 2 → Nat) = fun _ => 0 := funext fun a => by fin_cases a <;> rfl

/-- The block product at entry (p, q): the sum over k < 64 of left(p, k) * right(k, q).  The operands enter the
    product through a cast to their own shape and a change of format, both the identity on extended reals, and the
    accumulator is zero. -/
theorem pay_at (x0 : Vec Ideal S10000x64 .f32) (x1 : Vec Ideal S64x128 .f32) (p : Fin 10000) (q : Fin 128) :
    k0_pay1 x0 x1 (ix2 p q) = ∑ k : Fin 64, x0 (ix2 p k) * x1 (ix2 k q) := by
  unfold k0_pay1
  refine (Cert.LibMatmulSum.matmul_zero_at
    (Cert.LibMatmulSum.Plain.of_lists dot_S10000x64_S64x128_S10000x128_1_0_0_1_n_n rfl rfl rfl rfl rfl rfl) none
    (truncf .bf16 (shapeCast S10000x64 x0 shapeCasts_S10000x64_S10000x64) bitsLt_bf16_f32)
    (truncf .bf16 x1 bitsLt_bf16_f32) p q).trans ?_
  refine Finset.sum_congr rfl fun k _ => ?_
  rw [truncf_apply, truncf_apply, shapeCast_self]

/-- A block product at (p, q), when the left block is rows 10000 T … 10000 T + 9999 of an array X and the right
    block is an array W: the product of X and W at any index i in row 10000 T + p and column q. -/
theorem block_at (x0 : Vec Ideal S10000x64 .f32) (x1 : Vec Ideal S64x128 .f32)
    (X : S100000x64.Idx → EReal) (W : S64x128.Idx → EReal) (T : Nat)
    (h0 : ∀ (y : S10000x64.Idx) (i : S100000x64.Idx), (i 0).val = 10000 * T + (y 0).val → (i 1).val = (y 1).val → x0 y = X i)
    (h1 : ∀ y : S64x128.Idx, x1 y = W y)
    (p : Fin 10000) (q : Fin 128) (i : S100000x128.Idx) (hi0 : (i 0).val = 10000 * T + p.val) (hi1 : (i 1).val = q.val) :
    k0_pay1 x0 x1 (ix2 p q) = mmG X W i := by
  rw [pay_at]
  show _ = ∑ k : Fin 64, X (ix2 (i 0) k) * W (ix2 k (i 1))
  refine Finset.sum_congr rfl fun k _ => ?_
  have e1 : (ix2 k q : S64x128.Idx) = ix2 k (i 1) := funext fun a => Fin.ext (by
    match a with
    | ⟨0, _⟩ => rfl
    | ⟨1, _⟩ => exact hi1.symm)
  rw [h0 (ix2 p k) (ix2 (i 0) k) hi0 rfl, h1, e1]
  rfl

/-- The printed index maps, decided over the grid: at point t the left operand's and the result's block index is
    (t, 0), the right operand's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The left operand's block at point t is rows 10000 t … 10000 t + 9999 of its array. -/
theorem left_block (c : Dev nD) (t : Fin cfg0.N) (y : S10000x64.Idx) (i : S100000x64.Idx)
    (h0 : (i 0).val = 10000 * t.val + (y 0).val) (h1 : (i 1).val = (y 1).val) :
    (iblk0 V c 0 t : Vec Ideal S10000x64 .f32) y = (V c main_v22 : S100000x64.Idx → EReal) i := by
  obtain ⟨e0, e1, -⟩ := idx_facts t
  show (V c main_v22 : S100000x64.Idx → EReal) (((cfg0.win 0).blk t).view.emb y) = _
  refine congrArg (V c main_v22 : S100000x64.Idx → EReal) (funext fun a => Fin.ext ?_)
  match a with
  | ⟨0, _⟩ => show win0_0.index t (0 : Fin 2) * 10000 + 1 * (y 0).val = (i 0).val; omega
  | ⟨1, _⟩ => show win0_0.index t (1 : Fin 2) * 64 + 1 * (y 1).val = (i 1).val; omega

/-- The right operand's block at every point is its whole array. -/
theorem right_block (c : Dev nD) (t : Fin cfg0.N) (y : S64x128.Idx) :
    (iblk0 V c 1 t : Vec Ideal S64x128 .f32) y = (V c main_arg4 : S64x128.Idx → EReal) y := by
  obtain ⟨-, -, e0, e1, -⟩ := idx_facts t
  show (V c main_arg4 : S64x128.Idx → EReal) (((cfg0.win 1).blk t).view.emb y) = _
  refine congrArg (V c main_arg4 : S64x128.Idx → EReal) (funext fun a => Fin.ext ?_)
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- What point t writes back is block t of the product of the two arrays. -/
theorem flushed_eq (c : Dev nD) (t : Fin cfg0.N) :
    (dat0 V c).flushed 2 t = ((cfg0.win 2).blk t).view.read (Elt Ideal)
      (mmG (V c main_v22 : S100000x64.Idx → EReal) (V c main_arg4 : S64x128.Idx → EReal)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x128) zero_offsets]
  obtain ⟨-, -, -, -, e0, e1⟩ := idx_facts t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = mmG (V c main_v22 : S100000x64.Idx → EReal) (V c main_arg4 : S64x128.Idx → EReal) (((cfg0.win 2).blk t).view.emb (ix2 p q))
  exact block_at (iblk0 V c 0 t) (iblk0 V c 1 t) (V c main_v22 : S100000x64.Idx → EReal) (V c main_arg4 : S64x128.Idx → EReal) t.val
    (left_block V c t) (right_block V c t) p q (((cfg0.win 2).blk t).view.emb (ix2 p q))
    (by show win0_2.index t (0 : Fin 2) * 10000 + 1 * p.val = 10000 * t.val + p.val; omega)
    (by show win0_2.index t (1 : Fin 2) * 128 + 1 * q.val = q.val; omega)

/-- An index of the result is in point t's block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v23).slice (win0_2.rect t)).set ↔ _
  rw [View.set_slice_whole, Rect.mem_set_unit]
  exact Iff.rfl

/-- Every index of the result is in some point's block: row r is in the block of point r / 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show (i 0).val / 10000 < grid0.N; rw [N_0]; omega⟩, rfl⟩
  obtain ⟨-, -, -, -, e0, e1⟩ := idx_facts t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The result array after the region: the product of the two operand arrays as the region finds them. -/
theorem arr (c : Dev nD) :
    ((dat0 (F := Ideal) V c).arrAt 2 cfg0.N : S100000x128.Idx → EReal)
      = mmG (V c main_v22 : S100000x64.Idx → EReal) (V c main_arg4 : S64x128.Idx → EReal) :=
  (dat0 V c).arrAt_eq_of_cover 2 (mmG (V c main_v22 : S100000x64.Idx → EReal) (V c main_arg4 : S64x128.Idx → EReal))
    (fun t _ => flushed_eq V c t) cover

end Cert.Gcn.Region0

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region1.lean ====
/-
  The closing step of the first layer, read as a whole array.

  The step runs over 20 row blocks of 5000 rows. At block t it holds rows 5000 t … 5000 t + 4999 of the aggregate A,
  of the layer's own product H and of the self-loop column D, and the one bias row B, and it stores, at (p, q) of the
  block, the larger of 0 and A(p, q) + D(p, 0) * H(p, q) + B(0, q). Row r of the result lies in block r / 5000 and in
  no other, so the 20 stored blocks together are the array  finG A H D B  of the specification, whatever the arrays
  A, H, D, B are when the step begins.

  * pay_apply    — the stored block at (p, q), from the four loaded blocks;
  * idx_facts    — where each window's block sits at grid point t (decided over the 20 points);
  * blk0_apply … blk3_apply, emb4 — a loaded block's entry is the array's entry at row 5000 t + p (the bias: row 0),
                   and the stored block's (p, q) is the result's (5000 t + p, q);
  * flushed_eq   — what point t writes back is block t of finG A H D B;
  * mem_blk, cover — every row lies in the block of point r / 5000;
  * arr          — the array after the 20 points.
-/
import proofs.«160240_j4389456577462_1_alg».proof.Proof.Gen.KernelIdeal.Frame
import proofs.«160240_j4389456577462_1_alg».proof.Proof.Spec
import proofs.«160240_j4389456577462_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat)

/-- The offsets (0, 0) are zero on each axis. -/
theorem hz : (![0, 0] : Fin 2 → Nat) = fun _ => 0 := funext fun a => by fin_cases a <;> rfl

/-! ## The stored block at an entry -/

/-- Entry (p, q) of the stored block: the larger of 0 and a(p, q) + d(p, 0) * h(p, q) + b(0, q). The casts to the same
    shape change nothing, the column d is repeated along the 128 columns and the row b along the 5000 rows, the
    product, the sums and the maximum are taken entry by entry, and the constant is the real 0. -/
theorem pay_apply (a : Vec Ideal S5000x128 .f32) (d : Vec Ideal S5000x1 .f32) (h : Vec Ideal S5000x128 .f32)
    (b : Vec Ideal S1x128 .f32) (p : Fin 5000) (q : Fin 128) :
    k1_pay1 (F := Ideal) a d h b (ix2 p q)
      = max (a (ix2 p q) + d (ix2 p (0 : Fin 1)) * h (ix2 p q) + b (ix2 (0 : Fin 1) q)) 0 := by
  unfold k1_pay1
  rw [maximumf_apply, addf_apply, addf_apply, mulf_apply, broadcast_apply]
  rw [shapeCast_self, shapeCast_self, shapeCast_self, shapeCast_self]
  rw [broadcastTo_a1_ab_apply, broadcastTo_1b_ab_apply]
  show max _ (Ideal.ofBits .f32 0x00000000#32) = _
  rw [Ideal.ofBits_zero_f32]

/-! ## Where the blocks sit -/

/-- At grid point t the three row-blocked inputs and the output sit at block row t, block column 0; the bias row at
    its one block. Decided over the 20 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The aggregate's block at point t, entry (p, q): the aggregate at row r = 5000 t + p. -/
theorem blk0_apply (c : Dev nD) (t : Fin cfg1.N) (p : Fin 5000) (q : Fin 128) (r : Fin 100000)
    (hr : r.val = t.val * 5000 + p.val) :
    (iblk1 (F := Ideal) V c 0 t : Vec Ideal S5000x128 .f32) (ix2 p q)
      = (V c main_v82 : S100000x128.Idx → EReal) (ix2 r q) := by
  obtain ⟨e0, e1, -⟩ := idx_facts t
  unfold iblk1
  rw [View.read_apply]
  show V c main_v82 _ = V c main_v82 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- The layer's own product's block at point t, entry (p, q): the product at row r = 5000 t + p. -/
theorem blk1_apply (c : Dev nD) (t : Fin cfg1.N) (p : Fin 5000) (q : Fin 128) (r : Fin 100000)
    (hr : r.val = t.val * 5000 + p.val) :
    (iblk1 (F := Ideal) V c 1 t : Vec Ideal S5000x128 .f32) (ix2 p q)
      = (V c main_v23 : S100000x128.Idx → EReal) (ix2 r q) := by
  obtain ⟨-, -, e0, e1, -⟩ := idx_facts t
  unfold iblk1
  rw [View.read_apply]
  show V c main_v23 _ = V c main_v23 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * q.val = q.val; rw [e1]; omega

/-- The self-loop column's block at point t, entry (p, u): the column at row r = 5000 t + p. -/
theorem blk2_apply (c : Dev nD) (t : Fin cfg1.N) (p : Fin 5000) (u : Fin 1) (r : Fin 100000)
    (hr : r.val = t.val * 5000 + p.val) :
    (iblk1 (F := Ideal) V c 2 t : Vec Ideal S5000x1 .f32) (ix2 p u)
      = (V c main_v87 : S100000x1.Idx → EReal) (ix2 r u) := by
  obtain ⟨-, -, -, -, e0, e1, -⟩ := idx_facts t
  unfold iblk1
  rw [View.read_apply]
  show V c main_v87 _ = V c main_v87 _
  congr 1
  funext a
  apply Fin.ext
  match a with
  | ⟨0, _⟩ => show win1_2.index t (0 : Fin 2) * 5000 + 1 * p.val = r.val; rw [e0, hr]; omega
  | ⟨1, _⟩ => show win1_2.index t (1 : Fin 2) * 1 + 1 * u.val = u.val; rw [e1]; omega

/-- The bias row's block is the bias row, at every point. -/
theorem blk3_apply (c : Dev nD) (t : Fin cfg1.N) (u : Fin 1) (q : Fin 128) :
    (iblk1 (F := Ideal) V c 3 t : Vec Ideal S1x128 .f32) (ix2 u q)
      = (V c main_v88 : S1x128.Idx → EReal) (ix2 u q) := by
  obtain ⟨-, -, -, -, -, -, e0, e1, -⟩ := idx_facts t
  unfold iblk1
  rw [View.read_apply]
  show V c main_v88 _ = V c main_v88 _
  congr 1
  funext a
  apply Fin.ext
  match a with
  | ⟨0, _⟩ => show win1_3.index t (0 : Fin 2) * 1 + 1 * u.val = u.val; rw [e0]; omega
  | ⟨1, _⟩ => show win1_3.index t (1 : Fin 2) * 128 + 1 * q.val = q.val; rw [e1]; omega

/-- Entry (p, q) of the output's block at point t is entry (r, q) of the result, r = 5000 t + p. -/
theorem emb4 (t : Fin cfg1.N) (p : Fin 5000) (q : Fin 128) (r : Fin 100000) (hr : r.val = t.val * 5000 + p.val) :
    ((cfg1.win 4).blk t).view.emb (ix2 p q : S5000x128.Idx) = (ix2 r q : S100000x128.Idx) := by
  obtain ⟨-, -, -, -, -, -, -, -, e0, e1⟩ := idx_facts t
  funext a
  apply Fin.ext
  match a with
  | ⟨0, _⟩ => show win1_4.index t (0 : Fin 2) * 5000 + 1 * p.val = r.val; rw [e0, hr]; omega
  | ⟨1, _⟩ => show win1_4.index t (1 : Fin 2) * 128 + 1 * q.val = q.val; rw [e1]; omega

/-! ## What a point writes back -/

/-- Point t writes back block t of the array  finG A H D B  of the arrays as the step finds them. -/
theorem flushed_eq (c : Dev nD) (t : Fin cfg1.N) :
    (dat1 (F := Ideal) V c).flushed 4 t
      = ((cfg1.win 4).blk t).view.read (Elt Ideal)
          (finG (V c main_v82 : S100000x128.Idx → EReal) (V c main_v23 : S100000x128.Idx → EReal)
            (V c main_v87 : S100000x1.Idx → EReal) (V c main_v88 : S1x128.Idx → EReal)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x1) hz,
    View.ld_unit_zero (S := S1x128) hz]
  refine funext fun (j : S5000x128.Idx) => ?_
  obtain ⟨p, q, rfl⟩ : ∃ (p : Fin 5000) (q : Fin 128), j = ix2 p q := ⟨j 0, j 1, eq_ix2 j⟩
  have hN : grid1.N = 20 := N_1
  have ht : t.val < 20 := lt_of_lt_of_eq t.isLt hN
  have hp : p.val < 5000 := p.isLt
  have hr : t.val * 5000 + p.val < 100000 := by omega
  show k1_pay1 (F := Ideal) (iblk1 V c 0 t) (iblk1 V c 2 t) (iblk1 V c 1 t) (iblk1 V c 3 t) (ix2 p q)
    = finG (V c main_v82 : S100000x128.Idx → EReal) (V c main_v23 : S100000x128.Idx → EReal)
        (V c main_v87 : S100000x1.Idx → EReal) (V c main_v88 : S1x128.Idx → EReal)
        (((cfg1.win 4).blk t).view.emb (ix2 p q : S5000x128.Idx))
  rw [emb4 t p q ⟨t.val * 5000 + p.val, hr⟩ rfl, finG_apply]
  refine (pay_apply _ _ _ _ p q).trans ?_
  rw [blk0_apply V c t p q ⟨t.val * 5000 + p.val, hr⟩ rfl, blk1_apply V c t p q ⟨t.val * 5000 + p.val, hr⟩ rfl,
    blk2_apply V c t p (0 : Fin 1) ⟨t.val * 5000 + p.val, hr⟩ rfl, blk3_apply V c t (0 : Fin 1) q]

/-! ## The blocks cover the array -/

/-- A row index is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v89).slice (win1_4.rect t)).set ↔ _
  rw [View.set_slice_whole, Rect.mem_set_unit]
  exact Iff.rfl

/-- Every entry (r, q) is in the block of point r / 5000, which writes back. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  have hlt : (i 0).val / 5000 < grid1.N := by rw [hN]; omega
  obtain ⟨-, -, -, -, -, -, -, -, e0, e1⟩ := idx_facts ⟨(i 0).val / 5000, hlt⟩
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    rw [e1]
    omega

/-! ## The array after the step -/

/-- After its 20 points the step's output array is  finG A H D B  of the arrays as the step found them. -/
theorem arr (c : Dev nD) :
    ((dat1 (F := Ideal) V c).arrAt 4 cfg1.N : S100000x128.Idx → EReal)
      = finG (V c main_v82 : S100000x128.Idx → EReal) (V c main_v23 : S100000x128.Idx → EReal)
          (V c main_v87 : S100000x1.Idx → EReal) (V c main_v88 : S1x128.Idx → EReal) :=
  (dat1 (F := Ideal) V c).arrAt_eq_of_cover 4 _ (fun t _ => flushed_eq V c t) cover

end Cert.Gcn.Region1

end
-- ==== Proof.Region2.lean ====
/-
  The second dense step of the layer, as a whole array.  The grid has ten points; point t multiplies rows
  10000 t … 10000 t + 9999 of the [100000, 128] operand X by the [128, 64] operand W (the same W at every point) and
  writes the product back as the same rows of the [100000, 64] result.  Row r of the result lies in the block of
  point r / 10000, so after the ten write-backs the result holds, at entry (r, q), the sum over k < 128 of
  X(r, k) * W(k, q), for X and W as the region finds them.
-/
import proofs.«160240_j4389456577462_1_alg».proof.Proof.Gen.KernelIdeal.Frame
import proofs.«160240_j4389456577462_1_alg».proof.Proof.Spec
import proofs.«160240_j4389456577462_1_alg».proof.Proof.LibMatmulSum
import proofs.«160240_j4389456577462_1_alg».proof.Proof.LibPlainLists
import Idealize.ShloMosaic.Lib.Pipeline.Value
import Idealize.ShloMosaic.Lib.ValueIdx
import Idealize.ShloMosaic.PureOps.Ideal.Laws

noncomputable section

namespace Cert.Gcn.Region2

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as a constant function. -/
theorem zero_offsets : (![0, 0] : Fin 2 → Nat) = fun _ => 0 := funext fun a => by fin_cases a <;> rfl

/-- The block product at entry (p, q): the sum over k < 128 of left(p, k) * right(k, q).  The operands enter the
    product through a cast to their own shape and a change of format, both the identity on extended reals, and the
    accumulator is zero. -/
theorem pay_at (x0 : Vec Ideal S10000x128 .f32) (x1 : Vec Ideal S128x64 .f32) (p : Fin 10000) (q : Fin 64) :
    k2_pay1 x0 x1 (ix2 p q) = ∑ k : Fin 128, x0 (ix2 p k) * x1 (ix2 k q) := by
  unfold k2_pay1
  refine (Cert.LibMatmulSum.matmul_zero_at
    (Cert.LibMatmulSum.Plain.of_lists dot_S10000x128_S128x64_S10000x64_1_0_0_1_n_n rfl rfl rfl rfl rfl rfl) none
    (truncf .bf16 (shapeCast S10000x128 x0 shapeCasts_S10000x128_S10000x128) bitsLt_bf16_f32)
    (truncf .bf16 x1 bitsLt_bf16_f32) p q).trans ?_
  refine Finset.sum_congr rfl fun k _ => ?_
  rw [truncf_apply, truncf_apply, shapeCast_self]

/-- A block product at (p, q), when the left block is rows 10000 T … 10000 T + 9999 of an array X and the right
    block is an array W: the product of X and W at any index i in row 10000 T + p and column q. -/
theorem block_at (x0 : Vec Ideal S10000x128 .f32) (x1 : Vec Ideal S128x64 .f32)
    (X : S100000x128.Idx → EReal) (W : S128x64.Idx → EReal) (T : Nat)
    (h0 : ∀ (y : S10000x128.Idx) (i : S100000x128.Idx), (i 0).val = 10000 * T + (y 0).val → (i 1).val = (y 1).val → x0 y = X i)
    (h1 : ∀ y : S128x64.Idx, x1 y = W y)
    (p : Fin 10000) (q : Fin 64) (i : S100000x64.Idx) (hi0 : (i 0).val = 10000 * T + p.val) (hi1 : (i 1).val = q.val) :
    k2_pay1 x0 x1 (ix2 p q) = mmG X W i := by
  rw [pay_at]
  show _ = ∑ k : Fin 128, X (ix2 (i 0) k) * W (ix2 k (i 1))
  refine Finset.sum_congr rfl fun k _ => ?_
  have e1 : (ix2 k q : S128x64.Idx) = ix2 k (i 1) := funext fun a => Fin.ext (by
    match a with
    | ⟨0, _⟩ => rfl
    | ⟨1, _⟩ => exact hi1.symm)
  rw [h0 (ix2 p k) (ix2 (i 0) k) hi0 rfl, h1, e1]
  rfl

/-- The printed index maps, decided over the grid: at point t the left operand's and the result's block index is
    (t, 0), the right operand's is (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The left operand's block at point t is rows 10000 t … 10000 t + 9999 of its array. -/
theorem left_block (c : Dev nD) (t : Fin cfg2.N) (y : S10000x128.Idx) (i : S100000x128.Idx)
    (h0 : (i 0).val = 10000 * t.val + (y 0).val) (h1 : (i 1).val = (y 1).val) :
    (iblk2 V c 0 t : Vec Ideal S10000x128 .f32) y = (V c main_v92 : S100000x128.Idx → EReal) i := by
  obtain ⟨e0, e1, -⟩ := idx_facts t
  show (V c main_v92 : S100000x128.Idx → EReal) (((cfg2.win 0).blk t).view.emb y) = _
  refine congrArg (V c main_v92 : S100000x128.Idx → EReal) (funext fun a => Fin.ext ?_)
  match a with
  | ⟨0, _⟩ => show win2_0.index t (0 : Fin 2) * 10000 + 1 * (y 0).val = (i 0).val; omega
  | ⟨1, _⟩ => show win2_0.index t (1 : Fin 2) * 128 + 1 * (y 1).val = (i 1).val; omega

/-- The right operand's block at every point is its whole array. -/
theorem right_block (c : Dev nD) (t : Fin cfg2.N) (y : S128x64.Idx) :
    (iblk2 V c 1 t : Vec Ideal S128x64 .f32) y = (V c main_arg6 : S128x64.Idx → EReal) y := by
  obtain ⟨-, -, e0, e1, -⟩ := idx_facts t
  show (V c main_arg6 : S128x64.Idx → EReal) (((cfg2.win 1).blk t).view.emb y) = _
  refine congrArg (V c main_arg6 : S128x64.Idx → EReal) (funext fun a => Fin.ext ?_)
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- What point t writes back is block t of the product of the two arrays. -/
theorem flushed_eq (c : Dev nD) (t : Fin cfg2.N) :
    (dat2 V c).flushed 2 t = ((cfg2.win 2).blk t).view.read (Elt Ideal)
      (mmG (V c main_v92 : S100000x128.Idx → EReal) (V c main_arg6 : S128x64.Idx → EReal)) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x64) zero_offsets]
  obtain ⟨-, -, -, -, e0, e1⟩ := idx_facts t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
    = mmG (V c main_v92 : S100000x128.Idx → EReal) (V c main_arg6 : S128x64.Idx → EReal) (((cfg2.win 2).blk t).view.emb (ix2 p q))
  exact block_at (iblk2 V c 0 t) (iblk2 V c 1 t) (V c main_v92 : S100000x128.Idx → EReal) (V c main_arg6 : S128x64.Idx → EReal) t.val
    (left_block V c t) (right_block V c t) p q (((cfg2.win 2).blk t).view.emb (ix2 p q))
    (by show win2_2.index t (0 : Fin 2) * 10000 + 1 * p.val = 10000 * t.val + p.val; omega)
    (by show win2_2.index t (1 : Fin 2) * 64 + 1 * q.val = q.val; omega)

/-- An index of the result is in point t's block iff each coordinate is in the block's range on its axis. -/
theorem mem_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v93).slice (win2_2.rect t)).set ↔ _
  rw [View.set_slice_whole, Rect.mem_set_unit]
  exact Iff.rfl

/-- Every index of the result is in some point's block: row r is in the block of point r / 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by show (i 0).val / 10000 < grid2.N; rw [N_2]; omega⟩, rfl⟩
  obtain ⟨-, -, -, -, e0, e1⟩ := idx_facts t
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The result array after the region: the product of the two operand arrays as the region finds them. -/
theorem arr (c : Dev nD) :
    ((dat2 (F := Ideal) V c).arrAt 2 cfg2.N : S100000x64.Idx → EReal)
      = mmG (V c main_v92 : S100000x128.Idx → EReal) (V c main_arg6 : S128x64.Idx → EReal) :=
  (dat2 V c).arrAt_eq_of_cover 2 (mmG (V c main_v92 : S100000x128.Idx → EReal) (V c main_arg6 : S128x64.Idx → EReal))
    (fun t _ => flushed_eq V c t) cover

end Cert.Gcn.Region2

end
-- ==== Proof.Region3.lean ====
/-
  The closing step of the second layer, read as a whole array.

  The step runs over 20 row blocks of 5000 rows. At block t it holds rows 5000 t … 5000 t + 4999 of the aggregate A,
  of the layer's own product H and of the self-loop column D, and the one bias row B, and it stores, at (p, q) of the
  block, the larger of 0 and A(p, q) + D(p, 0) * H(p, q) + B(0, q). Row r of the result lies in block r / 5000 and in
  no other, so the 20 stored blocks together are the array  finG A H D B  of the specification, whatever the arrays
  A, H, D, B are when the step begins.

  * pay_apply    — the stored block at (p, q), from the four loaded blocks;
  * idx_facts    — where each window's block sits at grid point t (decided over the 20 points);
  * blk0_apply … blk3_apply, emb4 — a loaded block's entry is the array's entry at row 5000 t + p (the bias: row 0),
                   and the stored block's (p, q) is the result's (5000 t + p, q);
  * flushed_eq   — what point t writes back is block t of finG A H D B;
  * mem_blk, cover — every row lies in the block of point r / 5000;
  * arr          — the array after the 20 points.
-/
import proofs.«160240_j4389456577462_1_alg».proof.Proof.Gen.KernelIdeal.Frame
import proofs.«160240_j4389456577462_1_alg».proof.Proof.Spec
import proofs.«160240_j4389456577462_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region3

open Cert.KernelIdeal Cert.KernelIdeal.Gen Idealize.ShloMosaic Idealize.ShloMosaic.TcCoe Idealize.SL.Sem
open Idealize.ShloMosaic.ValueIdx
open Idealize.ShloMosaic.Pipeline (Dat)

/-- The offsets (0, 0) are zero on each axis. -/
theorem hz : (![0, 0] : Fin 2 → Nat) = fun _ => 0 := funext fun a => by fin_cases a <;> rfl

/-! ## The stored block at an entry -/

/-- Entry (p, q) of the stored block: the larger of 0 and a(p, q) + d(p, 0) * h(p, q) + b(0, q). The casts to the same
    shape change nothing, the column d is repeated along the 64 columns and the row b along the 5000 rows, the
    product, the sums and the maximum are taken entry by entry, and the constant is the real 0. -/
theorem pay_apply (a : Vec Ideal S5000x64 .f32) (d : Vec Ideal S5000x1 .f32) (h : Vec Ideal S5000x64 .f32)
    (b : Vec Ideal S1x64 .f32) (p : Fin 5000) (q : Fin 64) :
    k3_pay1 (F := Ideal) a d h b (ix2 p q)
      = max (a (ix2 p q) + d (ix2 p (0 : Fin 1)) * h (ix2 p q) + b (ix2 (0 : Fin 1) q)) 0 := by
  unfold k3_pay1
  rw [maximumf_apply, addf_apply, addf_apply, mulf_apply, broadcast_apply]
  rw [shapeCast_self, shapeCast_self, shapeCast_self, shapeCast_self]
  rw [broadcastTo_a1_ab_apply, broadcastTo_1b_ab_apply]
  show max _ (Ideal.ofBits .f32 0x00000000#32) = _
  rw [Ideal.ofBits_zero_f32]

/-! ## Where the blocks sit -/

/-- At grid point t the three row-blocked inputs and the output sit at block row t, block column 0; the bias row at
    its one block. Decided over the 20 points. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- The aggregate's block at point t, entry (p, q): the aggregate at row r = 5000 t + p. -/
theorem blk0_apply (c : Dev nD) (t : Fin cfg3.N) (p : Fin 5000) (q : Fin 64) (r : Fin 100000)
    (hr : r.val = t.val * 5000 + p.val) :
    (iblk3 (F := Ideal) V c 0 t : Vec Ideal S5000x64 .f32) (ix2 p q)
      = (V c main_v152 : S100000x64.Idx → EReal) (ix2 r q) := by
  obtain ⟨e0, e1, -⟩ := idx_facts t
  unfold iblk3
  rw [View.read_apply]
  show V c main_v152 _ = V c main_v152 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 64 + 1 * q.val = q.val; rw [e1]; omega

/-- The layer's own product's block at point t, entry (p, q): the product at row r = 5000 t + p. -/
theorem blk1_apply (c : Dev nD) (t : Fin cfg3.N) (p : Fin 5000) (q : Fin 64) (r : Fin 100000)
    (hr : r.val = t.val * 5000 + p.val) :
    (iblk3 (F := Ideal) V c 1 t : Vec Ideal S5000x64 .f32) (ix2 p q)
      = (V c main_v93 : S100000x64.Idx → EReal) (ix2 r q) := by
  obtain ⟨-, -, e0, e1, -⟩ := idx_facts t
  unfold iblk3
  rw [View.read_apply]
  show V c main_v93 _ = V c main_v93 _
  congr 1
  funext a
  apply Fin.ext
  match a with
  | ⟨0, _⟩ => show win3_1.index t (0 : Fin 2) * 5000 + 1 * p.val = r.val; rw [e0, hr]; omega
  | ⟨1, _⟩ => show win3_1.index t (1 : Fin 2) * 64 + 1 * q.val = q.val; rw [e1]; omega

/-- The self-loop column's block at point t, entry (p, u): the column at row r = 5000 t + p. -/
theorem blk2_apply (c : Dev nD) (t : Fin cfg3.N) (p : Fin 5000) (u : Fin 1) (r : Fin 100000)
    (hr : r.val = t.val * 5000 + p.val) :
    (iblk3 (F := Ideal) V c 2 t : Vec Ideal S5000x1 .f32) (ix2 p u)
      = (V c main_v157 : S100000x1.Idx → EReal) (ix2 r u) := by
  obtain ⟨-, -, -, -, e0, e1, -⟩ := idx_facts t
  unfold iblk3
  rw [View.read_apply]
  show V c main_v157 _ = V c main_v157 _
  congr 1
  funext a
  apply Fin.ext
  match a with
  | ⟨0, _⟩ => show win3_2.index t (0 : Fin 2) * 5000 + 1 * p.val = r.val; rw [e0, hr]; omega
  | ⟨1, _⟩ => show win3_2.index t (1 : Fin 2) * 1 + 1 * u.val = u.val; rw [e1]; omega

/-- The bias row's block is the bias row, at every point. -/
theorem blk3_apply (c : Dev nD) (t : Fin cfg3.N) (u : Fin 1) (q : Fin 64) :
    (iblk3 (F := Ideal) V c 3 t : Vec Ideal S1x64 .f32) (ix2 u q)
      = (V c main_v158 : S1x64.Idx → EReal) (ix2 u q) := by
  obtain ⟨-, -, -, -, -, -, e0, e1, -⟩ := idx_facts t
  unfold iblk3
  rw [View.read_apply]
  show V c main_v158 _ = V c main_v158 _
  congr 1
  funext a
  apply Fin.ext
  match a with
  | ⟨0, _⟩ => show win3_3.index t (0 : Fin 2) * 1 + 1 * u.val = u.val; rw [e0]; omega
  | ⟨1, _⟩ => show win3_3.index t (1 : Fin 2) * 64 + 1 * q.val = q.val; rw [e1]; omega

/-- Entry (p, q) of the output's block at point t is entry (r, q) of the result, r = 5000 t + p. -/
theorem emb4 (t : Fin cfg3.N) (p : Fin 5000) (q : Fin 64) (r : Fin 100000) (hr : r.val = t.val * 5000 + p.val) :
    ((cfg3.win 4).blk t).view.emb (ix2 p q : S5000x64.Idx) = (ix2 r q : S100000x64.Idx) := by
  obtain ⟨-, -, -, -, -, -, -, -, e0, e1⟩ := idx_facts t
  funext a
  apply Fin.ext
  match a with
  | ⟨0, _⟩ => show win3_4.index t (0 : Fin 2) * 5000 + 1 * p.val = r.val; rw [e0, hr]; omega
  | ⟨1, _⟩ => show win3_4.index t (1 : Fin 2) * 64 + 1 * q.val = q.val; rw [e1]; omega

/-! ## What a point writes back -/

/-- Point t writes back block t of the array  finG A H D B  of the arrays as the step finds them. -/
theorem flushed_eq (c : Dev nD) (t : Fin cfg3.N) :
    (dat3 (F := Ideal) V c).flushed 4 t
      = ((cfg3.win 4).blk t).view.read (Elt Ideal)
          (finG (V c main_v152 : S100000x64.Idx → EReal) (V c main_v93 : S100000x64.Idx → EReal)
            (V c main_v157 : S100000x1.Idx → EReal) (V c main_v158 : S1x64.Idx → EReal)) := by
  show (cfg3.win 4).cut (grid3.coords t) ((dat3 (F := Ideal) V c).after 4 t) = _
  rw [after3_4]
  unfold out3_4
  rw [View.canon_unit_zero hz]
  simp only [View.ld_unit_zero (S := S5000x64) hz, View.ld_unit_zero (S := S5000x1) hz,
    View.ld_unit_zero (S := S1x64) hz]
  refine funext fun (j : S5000x64.Idx) => ?_
  obtain ⟨p, q, rfl⟩ : ∃ (p : Fin 5000) (q : Fin 64), j = ix2 p q := ⟨j 0, j 1, eq_ix2 j⟩
  have hN : grid3.N = 20 := N_3
  have ht : t.val < 20 := lt_of_lt_of_eq t.isLt hN
  have hp : p.val < 5000 := p.isLt
  have hr : t.val * 5000 + p.val < 100000 := by omega
  show k3_pay1 (F := Ideal) (iblk3 V c 0 t) (iblk3 V c 2 t) (iblk3 V c 1 t) (iblk3 V c 3 t) (ix2 p q)
    = finG (V c main_v152 : S100000x64.Idx → EReal) (V c main_v93 : S100000x64.Idx → EReal)
        (V c main_v157 : S100000x1.Idx → EReal) (V c main_v158 : S1x64.Idx → EReal)
        (((cfg3.win 4).blk t).view.emb (ix2 p q : S5000x64.Idx))
  rw [emb4 t p q ⟨t.val * 5000 + p.val, hr⟩ rfl, finG_apply]
  refine (pay_apply _ _ _ _ p q).trans ?_
  rw [blk0_apply V c t p q ⟨t.val * 5000 + p.val, hr⟩ rfl, blk1_apply V c t p q ⟨t.val * 5000 + p.val, hr⟩ rfl,
    blk2_apply V c t p (0 : Fin 1) ⟨t.val * 5000 + p.val, hr⟩ rfl, blk3_apply V c t (0 : Fin 1) q]

/-! ## The blocks cover the array -/

/-- A row index is in point t's block iff each coordinate is in the block's range on its axis. -/
theorem mem_blk (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v159).slice (win3_4.rect t)).set ↔ _
  rw [View.set_slice_whole, Rect.mem_set_unit]
  exact Iff.rfl

/-- Every entry (r, q) is in the block of point r / 5000, which writes back. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : grid3.N = 20 := N_3
  have hlt : (i 0).val / 5000 < grid3.N := by rw [hN]; omega
  obtain ⟨-, -, -, -, -, -, -, -, e0, e1⟩ := idx_facts ⟨(i 0).val / 5000, hlt⟩
  refine ⟨⟨(i 0).val / 5000, hlt⟩, flush3_4 _, ?_⟩
  rw [mem_blk]
  intro a
  match a with
  | ⟨0, _⟩ =>
    show win3_4.index ⟨(i 0).val / 5000, hlt⟩ (0 : Fin 2) * 5000 ≤ (i 0).val
      ∧ (i 0).val < win3_4.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win3_4.index ⟨(i 0).val / 5000, hlt⟩ (1 : Fin 2) * 64 ≤ (i 1).val
      ∧ (i 1).val < win3_4.index ⟨(i 0).val / 5000, hlt⟩ (1 : Fin 2) * 64 + 64
    rw [e1]
    omega

/-! ## The array after the step -/

/-- After its 20 points the step's output array is  finG A H D B  of the arrays as the step found them. -/
theorem arr (c : Dev nD) :
    ((dat3 (F := Ideal) V c).arrAt 4 cfg3.N : S100000x64.Idx → EReal)
      = finG (V c main_v152 : S100000x64.Idx → EReal) (V c main_v93 : S100000x64.Idx → EReal)
          (V c main_v157 : S100000x1.Idx → EReal) (V c main_v158 : S1x64.Idx → EReal) :=
  (dat3 (F := Ideal) V c).arrAt_eq_of_cover 4 _ (fun t _ => flushed_eq V c t) cover

end Cert.Gcn.Region3

end
-- ==== Proof.LibCat2.lean ====
/-
  Rank-2 arrays cut and joined, read at coordinates, for any sizes and any element type.

  * a slice of an n x w array from offsets (o0, o1), read at (p, q), is the array at (o0 + p, o1 + q);
  * two blocks stacked along the rows (n1 rows over n2 rows), read at (p, q), is the upper block at (p, q) when
    p < n1 and the lower block at (p - n1, q) otherwise;
  * two blocks set side by side along the columns (w1 columns, then w2), read at (p, q), is the left block at (p, q)
    when q < w1 and the right block at (p, q - w1) otherwise.
-/
import Idealize.ShloMosaic.Lib.Pipeline.Value
import Idealize.ShloMosaic.Lib.ValueIdx

namespace Cert.LibCat2

open Idealize.ShloMosaic Idealize.ShloMosaic.ValueIdx

variable {α : Type}

/-- A slice from offsets (o0, o1) read at (p, q) is the array at (o0 + p, o1 + q). -/
theorem slice_apply {n w n' w' : ℕ} (o0 o1 : ℕ) (x : (⟨2, ![n, w]⟩ : Shape).Idx → α)
    (h : (⟨2, ![n, w]⟩ : Shape).Slices ![o0, o1] (⟨2, ![n', w']⟩ : Shape)) (p : Fin n') (q : Fin w')
    (hp : o0 + p.val < n) (hq : o1 + q.val < w) :
    extractStridedSlice (⟨2, ![n', w']⟩ : Shape) ![o0, o1] x h (ix2 p q) = x (ix2 (⟨o0 + p.val, hp⟩ : Fin n) (⟨o1 + q.val, hq⟩ : Fin w)) :=
  extractStridedSlice_apply ![o0, o1] x h (ix2 p q) (ix2 (⟨o0 + p.val, hp⟩ : Fin n) (⟨o1 + q.val, hq⟩ : Fin w))
    (fun a => match a with
      | ⟨0, _⟩ => rfl
      | ⟨1, _⟩ => rfl)

/-- Two blocks stacked along the rows, read at (p, q): the upper block when p is one of its rows, else the lower block
    at row p - n1. -/
theorem rows_apply {n1 n2 n w : ℕ} (hn : n = n1 + n2) (x1 : (⟨2, ![n1, w]⟩ : Shape).Idx → α) (x2 : (⟨2, ![n2, w]⟩ : Shape).Idx → α)
    (h : Shape.Concatenates [(⟨2, ![n1, w]⟩ : Shape), (⟨2, ![n2, w]⟩ : Shape)] (⟨2, ![n, w]⟩ : Shape) (0 : Fin 2))
    (p : Fin n) (q : Fin w) :
    concatenate (⟨2, ![n, w]⟩ : Shape) (0 : Fin 2) [⟨(⟨2, ![n1, w]⟩ : Shape), x1⟩, ⟨(⟨2, ![n2, w]⟩ : Shape), x2⟩] h (ix2 p q)
      = if hp : p.val < n1 then x1 (ix2 (⟨p.val, hp⟩ : Fin n1) q)
        else x2 (ix2 (⟨p.val - n1, by have := p.isLt; omega⟩ : Fin n2) q) := by
  split
  · rename_i hp
    exact concatenate_pair_apply_left (0 : Fin 2) x1 x2 h (ix2 p q) rfl (ix2 (⟨p.val, hp⟩ : Fin n1) q)
      (fun b => match b with
        | ⟨0, _⟩ => rfl
        | ⟨1, _⟩ => rfl)
  · rename_i hp
    exact concatenate_pair_apply_right (0 : Fin 2) x1 x2 h (ix2 p q) rfl rfl
      (ix2 (⟨p.val - n1, by have := p.isLt; omega⟩ : Fin n2) q)
      (fun b hb => match b, hb with
        | ⟨0, _⟩, hb => absurd rfl hb
        | ⟨1, _⟩, _ => rfl)
      (by show (p.val - n1) + n1 = p.val; omega)

/-- Two blocks set side by side along the columns, read at (p, q): the left block when q is one of its columns, else
    the right block at column q - w1. -/
theorem cols_apply {w1 w2 n w : ℕ} (hw : w = w1 + w2) (x1 : (⟨2, ![n, w1]⟩ : Shape).Idx → α) (x2 : (⟨2, ![n, w2]⟩ : Shape).Idx → α)
    (h : Shape.Concatenates [(⟨2, ![n, w1]⟩ : Shape), (⟨2, ![n, w2]⟩ : Shape)] (⟨2, ![n, w]⟩ : Shape) (1 : Fin 2))
    (p : Fin n) (q : Fin w) :
    concatenate (⟨2, ![n, w]⟩ : Shape) (1 : Fin 2) [⟨(⟨2, ![n, w1]⟩ : Shape), x1⟩, ⟨(⟨2, ![n, w2]⟩ : Shape), x2⟩] h (ix2 p q)
      = if hq : q.val < w1 then x1 (ix2 p (⟨q.val, hq⟩ : Fin w1))
        else x2 (ix2 p (⟨q.val - w1, by have := q.isLt; omega⟩ : Fin w2)) := by
  split
  · rename_i hq
    exact concatenate_pair_apply_left (1 : Fin 2) x1 x2 h (ix2 p q) rfl (ix2 p (⟨q.val, hq⟩ : Fin w1))
      (fun b => match b with
        | ⟨0, _⟩ => rfl
        | ⟨1, _⟩ => rfl)
  · rename_i hq
    exact concatenate_pair_apply_right (1 : Fin 2) x1 x2 h (ix2 p q) rfl rfl
      (ix2 p (⟨q.val - w1, by have := q.isLt; omega⟩ : Fin w2))
      (fun b hb => match b, hb with
        | ⟨0, _⟩, _ => rfl
        | ⟨1, _⟩, hb => absurd rfl hb)
      (by show (q.val - w1) + w1 = q.val; omega)

end Cert.LibCat2
-- ==== Proof.LibHostRow.lean ====
/-
  A bias vector on the host, read at an entry, for any sizes and element type: a one-row matrix [1, b] repeated down
  a rows by broadcast_in_dim (dims [0, 1]) reads at (p, c) the row's entry c; a length-b vector laid as a [1, b] row by
  broadcast_in_dim (dims [1]) reads at (u, c) the vector's entry c; and a length-b vector CAST (reshaped) to a [1, b]
  row is that same row, so a kernel fed `b.reshape(1, d)` and a reference that broadcasts `b` see one array.
-/
import Idealize.ShloMosaic.Lib.Pipeline.Value
import Idealize.ShloMosaic.Lib.ValueIdx
import Idealize.ShloMosaic.Lib.ValueLayout

namespace Cert.LibHostRow

open Idealize.ShloMosaic Idealize.ShloMosaic.ValueIdx

variable {α : Type}

/-- A `[1, b]` array repeated down `a` rows by the host reads, at `(p, c)`, the one row at `c`. -/
theorem bcastRows_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector laid as a `[1, b]` row by the host reads, at `(u, c)`, the vector's entry `c`. -/
theorem bcastRow_apply {b : ℕ} (v : (⟨1, ![b]⟩ : Shape).Idx → α)
    (h : (⟨1, ![b]⟩ : Shape).BroadcastsInDim ⟨2, ![1, b]⟩ (![1] : Fin 1 → Fin 2))
    (u : Fin 1) (c : Fin b) : broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A length-`b` vector cast to a `[1, b]` row is the host's laying of it as a row: both read the vector's entry in
    that column. -/
theorem castRow_eq_bcastRow {b : ℕ} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast ⟨2, ![1, b]⟩ v h = broadcastInDim ⟨2, ![1, b]⟩ ![1] h' v := by
  funext j
  obtain ⟨u, c, rfl⟩ : ∃ (u : Fin 1) (c : Fin b), j = ix2 u c := ⟨j 0, j 1, eq_ix2 j⟩
  rw [shapeCast_a_1a_apply, bcastRow_apply]

end Cert.LibHostRow
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«160240_j4389456577462_1_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.Bridge.lean ====
/-
  Two graphs stacked row-wise (n rows over n rows) and put through one dense step as a single array of N = n + n rows;
  the upper or lower half of the result is that step applied to the one graph alone, written with host operations.

  * Matrix product: rows 0 .. n-1 (resp. n .. 2n-1) of (X1 over X2) * W are X1 * W (resp. X2 * W): entry (p, q) is the
    sum over k of row p (resp. n + p) of the stacked array times W(k, q), and that row is row p of X1 (resp. X2).
  * Closing step: rows of max(A + D * H + B, 0), with A = (A1 over A2), D = (c1 over c2) as columns and B the bias as a
    row, are max(A_i + c_i * H_i + b, 0) with c_i repeated along the columns, b repeated down the rows, H_i the
    matching half of H, and 0 a scalar spread over the whole array.
-/
import proofs.«160240_j4389456577462_1_alg».proof.Proof.Spec
import proofs.«160240_j4389456577462_1_alg».proof.Proof.LibCat2
import proofs.«160240_j4389456577462_1_alg».proof.Proof.LibHostRow
import proofs.«160240_j4389456577462_1_alg».proof.Proof.LibMatmulSum
import proofs.«160240_j4389456577462_1_alg».proof.Proof.LibHostDotSum
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.Gcn

open Idealize.ShloMosaic Idealize.ShloMosaic.ValueIdx

/-! ## Small host layouts read at an entry -/

section Layouts
variable {α : Type}

/-- A length-a vector laid as an [a, 1] column reads, at (p, u), the vector's entry p. -/
theorem bcastCol_apply {a : ℕ} (v : (⟨1, ![a]⟩ : Shape).Idx → α)
    (h : (⟨1, ![a]⟩ : Shape).BroadcastsInDim ⟨2, ![a, 1]⟩ (![0] : Fin 1 → Fin 2))
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An [a, 1] column repeated along b columns reads, at (p, c), the column's entry in row p. -/
theorem bcastCols_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over an array reads the scalar at every entry. -/
theorem bcastScalar_apply {s : Shape} (v : (⟨0, ![]⟩ : Shape).Idx → α)
    (h : (⟨0, ![]⟩ : Shape).BroadcastsInDim s ![]) (j : s.Idx) : broadcastInDim s ![] h v j = v ix0 :=
  broadcastInDim_apply ![] h v j ix0 fun ax => ax.elim0

/-- Two blocks of n rows stacked, read at a row of the upper half: the upper block. -/
theorem stackTop_apply {n N w : ℕ} (hN : N = n + n) (x1 x2 : (⟨2, ![n, w]⟩ : Shape).Idx → α)
    (hc : Shape.Concatenates [(⟨2, ![n, w]⟩ : Shape), (⟨2, ![n, w]⟩ : Shape)] (⟨2, ![N, w]⟩ : Shape) (0 : Fin 2))
    (p : Fin n) (q : Fin w) (P : Fin N) (hP : P.val = p.val) :
    concatenate (⟨2, ![N, w]⟩ : Shape) (0 : Fin 2) [⟨(⟨2, ![n, w]⟩ : Shape), x1⟩, ⟨(⟨2, ![n, w]⟩ : Shape), x2⟩] hc (ix2 P q)
      = x1 (ix2 p q) := by
  have hlt : P.val < n := by have := p.isLt; omega
  rw [Cert.LibCat2.rows_apply hN x1 x2 hc P q, dif_pos hlt]
  exact congrArg (fun a : Fin n => x1 (ix2 a q)) (Fin.ext hP)

/-- Two blocks of n rows stacked, read at row n + p: the lower block at row p. -/
theorem stackBot_apply {n N w : ℕ} (hN : N = n + n) (x1 x2 : (⟨2, ![n, w]⟩ : Shape).Idx → α)
    (hc : Shape.Concatenates [(⟨2, ![n, w]⟩ : Shape), (⟨2, ![n, w]⟩ : Shape)] (⟨2, ![N, w]⟩ : Shape) (0 : Fin 2))
    (p : Fin n) (q : Fin w) (P : Fin N) (hP : P.val = n + p.val) :
    concatenate (⟨2, ![N, w]⟩ : Shape) (0 : Fin 2) [⟨(⟨2, ![n, w]⟩ : Shape), x1⟩, ⟨(⟨2, ![n, w]⟩ : Shape), x2⟩] hc (ix2 P q)
      = x2 (ix2 p q) := by
  have hnlt : ¬ P.val < n := by omega
  rw [Cert.LibCat2.rows_apply hN x1 x2 hc P q, dif_neg hnlt]
  exact congrArg (fun a : Fin n => x2 (ix2 a q)) (Fin.ext (by show P.val - n = p.val; omega))

end Layouts

/-! ## The matrix product of the stacked array, halved

The host product is stated at f32 operands; over the extended reals it is the same function at every operand format. -/

theorem mm_slice_top {n N K w : ℕ} (hN : N = n + n) (X1 X2 : (⟨2, ![n, K]⟩ : Shape).Idx → EReal) (W : (⟨2, ![K, w]⟩ : Shape).Idx → EReal)
    (hc : Shape.Concatenates [(⟨2, ![n, K]⟩ : Shape), (⟨2, ![n, K]⟩ : Shape)] (⟨2, ![N, K]⟩ : Shape) (0 : Fin 2))
    (hs : (⟨2, ![N, w]⟩ : Shape).Slices ![0, 0] (⟨2, ![n, w]⟩ : Shape))
    {d : DotDims ⟨2, ![n, K]⟩ ⟨2, ![K, w]⟩ ⟨2, ![n, w]⟩} (hd : Cert.LibMatmulSum.Plain d) (prec : Option ContractPrecision) :
    extractStridedSlice (⟨2, ![n, w]⟩ : Shape) ![0, 0]
        (mmG (concatenate (⟨2, ![N, K]⟩ : Shape) (0 : Fin 2) [⟨(⟨2, ![n, K]⟩ : Shape), X1⟩, ⟨(⟨2, ![n, K]⟩ : Shape), X2⟩] hc) W) hs
      = Host.dotGeneral (F := Ideal) (φ₁ := .f32) (φ₂ := .f32) d prec X1 W := by
  funext j
  obtain ⟨p, q, rfl⟩ : ∃ (p : Fin n) (q : Fin w), j = ix2 p q := ⟨j 0, j 1, eq_ix2 j⟩
  have hp : 0 + p.val < N := by have := p.isLt; omega
  have hq : 0 + q.val < w := by have := q.isLt; omega
  have eq : (⟨0 + q.val, hq⟩ : Fin w) = q := Fin.ext (Nat.zero_add _)
  rw [Cert.LibCat2.slice_apply 0 0 _ hs p q hp hq, eq, mmG_apply, Cert.LibMatmulSum.hostDot_at hd]
  refine Finset.sum_congr rfl fun k _ => ?_
  rw [stackTop_apply hN X1 X2 hc p k ⟨0 + p.val, hp⟩ (Nat.zero_add _)]

theorem mm_slice_bot {n N K w : ℕ} (hN : N = n + n) (X1 X2 : (⟨2, ![n, K]⟩ : Shape).Idx → EReal) (W : (⟨2, ![K, w]⟩ : Shape).Idx → EReal)
    (hc : Shape.Concatenates [(⟨2, ![n, K]⟩ : Shape), (⟨2, ![n, K]⟩ : Shape)] (⟨2, ![N, K]⟩ : Shape) (0 : Fin 2))
    (hs : (⟨2, ![N, w]⟩ : Shape).Slices ![n, 0] (⟨2, ![n, w]⟩ : Shape))
    {d : DotDims ⟨2, ![n, K]⟩ ⟨2, ![K, w]⟩ ⟨2, ![n, w]⟩} (hd : Cert.LibMatmulSum.Plain d) (prec : Option ContractPrecision) :
    extractStridedSlice (⟨2, ![n, w]⟩ : Shape) ![n, 0]
        (mmG (concatenate (⟨2, ![N, K]⟩ : Shape) (0 : Fin 2) [⟨(⟨2, ![n, K]⟩ : Shape), X1⟩, ⟨(⟨2, ![n, K]⟩ : Shape), X2⟩] hc) W) hs
      = Host.dotGeneral (F := Ideal) (φ₁ := .f32) (φ₂ := .f32) d prec X2 W := by
  funext j
  obtain ⟨p, q, rfl⟩ : ∃ (p : Fin n) (q : Fin w), j = ix2 p q := ⟨j 0, j 1, eq_ix2 j⟩
  have hp : n + p.val < N := by have := p.isLt; omega
  have hq : 0 + q.val < w := by have := q.isLt; omega
  have eq : (⟨0 + q.val, hq⟩ : Fin w) = q := Fin.ext (Nat.zero_add _)
  rw [Cert.LibCat2.slice_apply n 0 _ hs p q hp hq, eq, mmG_apply, Cert.LibMatmulSum.hostDot_at hd]
  refine Finset.sum_congr rfl fun k _ => ?_
  rw [stackBot_apply hN X1 X2 hc p k ⟨n + p.val, hp⟩ rfl]

/-! ## The closing step of the stacked array, halved -/

theorem fin_slice_top {n N w : ℕ} (hN : N = n + n) (A1 A2 : (⟨2, ![n, w]⟩ : Shape).Idx → EReal) (H : (⟨2, ![N, w]⟩ : Shape).Idx → EReal)
    (c1 c2 : (⟨1, ![n]⟩ : Shape).Idx → EReal) (b : (⟨1, ![w]⟩ : Shape).Idx → EReal)
    (hcA : Shape.Concatenates [(⟨2, ![n, w]⟩ : Shape), (⟨2, ![n, w]⟩ : Shape)] (⟨2, ![N, w]⟩ : Shape) (0 : Fin 2))
    (hcD : Shape.Concatenates [(⟨2, ![n, 1]⟩ : Shape), (⟨2, ![n, 1]⟩ : Shape)] (⟨2, ![N, 1]⟩ : Shape) (0 : Fin 2))
    (hb1 : (⟨1, ![n]⟩ : Shape).BroadcastsInDim (⟨2, ![n, 1]⟩ : Shape) ![0])
    (hb2 : (⟨2, ![n, 1]⟩ : Shape).BroadcastsInDim (⟨2, ![n, w]⟩ : Shape) ![0, 1])
    (hb3 : (⟨2, ![1, w]⟩ : Shape).BroadcastsInDim (⟨2, ![n, w]⟩ : Shape) ![0, 1])
    (hb4 : (⟨1, ![w]⟩ : Shape).BroadcastsInDim (⟨2, ![1, w]⟩ : Shape) ![1])
    (hb0 : (⟨0, ![]⟩ : Shape).BroadcastsInDim (⟨2, ![n, w]⟩ : Shape) ![])
    (hsc : (⟨1, ![w]⟩ : Shape).ShapeCasts (⟨2, ![1, w]⟩ : Shape))
    (hs : (⟨2, ![N, w]⟩ : Shape).Slices ![0, 0] (⟨2, ![n, w]⟩ : Shape)) :
    extractStridedSlice (⟨2, ![n, w]⟩ : Shape) ![0, 0]
        (finG (concatenate (⟨2, ![N, w]⟩ : Shape) (0 : Fin 2) [⟨(⟨2, ![n, w]⟩ : Shape), A1⟩, ⟨(⟨2, ![n, w]⟩ : Shape), A2⟩] hcA) H
          (concatenate (⟨2, ![N, 1]⟩ : Shape) (0 : Fin 2) [⟨(⟨2, ![n, 1]⟩ : Shape), broadcastInDim (⟨2, ![n, 1]⟩ : Shape) ![0] hb1 c1⟩, ⟨(⟨2, ![n, 1]⟩ : Shape), broadcastInDim (⟨2, ![n, 1]⟩ : Shape) ![0] hb1 c2⟩] hcD)
          (shapeCast (⟨2, ![1, w]⟩ : Shape) b hsc)) hs
      = maximumf (F := Ideal) (φ := .f32)
          (addf (addf A1 (mulf (broadcastInDim (⟨2, ![n, w]⟩ : Shape) ![0, 1] hb2 (broadcastInDim (⟨2, ![n, 1]⟩ : Shape) ![0] hb1 c1))
                                      (extractStridedSlice (⟨2, ![n, w]⟩ : Shape) ![0, 0] H hs)))
                       (broadcastInDim (⟨2, ![n, w]⟩ : Shape) ![0, 1] hb3 (broadcastInDim (⟨2, ![1, w]⟩ : Shape) ![1] hb4 b)))
          (broadcastInDim (⟨2, ![n, w]⟩ : Shape) ![] hb0 (constant (F := Ideal) (⟨0, ![]⟩ : Shape) .f32 0x00000000#32)) := by
  funext j
  obtain ⟨p, q, rfl⟩ : ∃ (p : Fin n) (q : Fin w), j = ix2 p q := ⟨j 0, j 1, eq_ix2 j⟩
  have hp : 0 + p.val < N := by have := p.isLt; omega
  have hq : 0 + q.val < w := by have := q.isLt; omega
  have eq : (⟨0 + q.val, hq⟩ : Fin w) = q := Fin.ext (Nat.zero_add _)
  rw [maximumf_apply, addf_apply, addf_apply, mulf_apply]
  rw [Cert.LibCat2.slice_apply 0 0 H hs p q hp hq, Cert.LibCat2.slice_apply 0 0 _ hs p q hp hq, eq, finG_apply]
  rw [stackTop_apply hN A1 A2 hcA p q ⟨0 + p.val, hp⟩ (Nat.zero_add _)]
  rw [stackTop_apply hN (broadcastInDim (⟨2, ![n, 1]⟩ : Shape) ![0] hb1 c1) (broadcastInDim (⟨2, ![n, 1]⟩ : Shape) ![0] hb1 c2)
    hcD p (0 : Fin 1) ⟨0 + p.val, hp⟩ (Nat.zero_add _)]
  rw [bcastCol_apply, shapeCast_a_1a_apply, bcastCols_apply, bcastCol_apply,
    Cert.LibHostRow.bcastRows_apply, Cert.LibHostRow.bcastRow_apply, bcastScalar_apply, constant_apply, Ideal.ofBits_zero_f32]

theorem fin_slice_bot {n N w : ℕ} (hN : N = n + n) (A1 A2 : (⟨2, ![n, w]⟩ : Shape).Idx → EReal) (H : (⟨2, ![N, w]⟩ : Shape).Idx → EReal)
    (c1 c2 : (⟨1, ![n]⟩ : Shape).Idx → EReal) (b : (⟨1, ![w]⟩ : Shape).Idx → EReal)
    (hcA : Shape.Concatenates [(⟨2, ![n, w]⟩ : Shape), (⟨2, ![n, w]⟩ : Shape)] (⟨2, ![N, w]⟩ : Shape) (0 : Fin 2))
    (hcD : Shape.Concatenates [(⟨2, ![n, 1]⟩ : Shape), (⟨2, ![n, 1]⟩ : Shape)] (⟨2, ![N, 1]⟩ : Shape) (0 : Fin 2))
    (hb1 : (⟨1, ![n]⟩ : Shape).BroadcastsInDim (⟨2, ![n, 1]⟩ : Shape) ![0])
    (hb2 : (⟨2, ![n, 1]⟩ : Shape).BroadcastsInDim (⟨2, ![n, w]⟩ : Shape) ![0, 1])
    (hb3 : (⟨2, ![1, w]⟩ : Shape).BroadcastsInDim (⟨2, ![n, w]⟩ : Shape) ![0, 1])
    (hb4 : (⟨1, ![w]⟩ : Shape).BroadcastsInDim (⟨2, ![1, w]⟩ : Shape) ![1])
    (hb0 : (⟨0, ![]⟩ : Shape).BroadcastsInDim (⟨2, ![n, w]⟩ : Shape) ![])
    (hsc : (⟨1, ![w]⟩ : Shape).ShapeCasts (⟨2, ![1, w]⟩ : Shape))
    (hs : (⟨2, ![N, w]⟩ : Shape).Slices ![n, 0] (⟨2, ![n, w]⟩ : Shape)) :
    extractStridedSlice (⟨2, ![n, w]⟩ : Shape) ![n, 0]
        (finG (concatenate (⟨2, ![N, w]⟩ : Shape) (0 : Fin 2) [⟨(⟨2, ![n, w]⟩ : Shape), A1⟩, ⟨(⟨2, ![n, w]⟩ : Shape), A2⟩] hcA) H
          (concatenate (⟨2, ![N, 1]⟩ : Shape) (0 : Fin 2) [⟨(⟨2, ![n, 1]⟩ : Shape), broadcastInDim (⟨2, ![n, 1]⟩ : Shape) ![0] hb1 c1⟩, ⟨(⟨2, ![n, 1]⟩ : Shape), broadcastInDim (⟨2, ![n, 1]⟩ : Shape) ![0] hb1 c2⟩] hcD)
          (shapeCast (⟨2, ![1, w]⟩ : Shape) b hsc)) hs
      = maximumf (F := Ideal) (φ := .f32)
          (addf (addf A2 (mulf (broadcastInDim (⟨2, ![n, w]⟩ : Shape) ![0, 1] hb2 (broadcastInDim (⟨2, ![n, 1]⟩ : Shape) ![0] hb1 c2))
                                      (extractStridedSlice (⟨2, ![n, w]⟩ : Shape) ![n, 0] H hs)))
                       (broadcastInDim (⟨2, ![n, w]⟩ : Shape) ![0, 1] hb3 (broadcastInDim (⟨2, ![1, w]⟩ : Shape) ![1] hb4 b)))
          (broadcastInDim (⟨2, ![n, w]⟩ : Shape) ![] hb0 (constant (F := Ideal) (⟨0, ![]⟩ : Shape) .f32 0x00000000#32)) := by
  funext j
  obtain ⟨p, q, rfl⟩ : ∃ (p : Fin n) (q : Fin w), j = ix2 p q := ⟨j 0, j 1, eq_ix2 j⟩
  have hp : n + p.val < N := by have := p.isLt; omega
  have hq : 0 + q.val < w := by have := q.isLt; omega
  have eq : (⟨0 + q.val, hq⟩ : Fin w) = q := Fin.ext (Nat.zero_add _)
  rw [maximumf_apply, addf_apply, addf_apply, mulf_apply]
  rw [Cert.LibCat2.slice_apply n 0 H hs p q hp hq, Cert.LibCat2.slice_apply n 0 _ hs p q hp hq, eq, finG_apply]
  rw [stackBot_apply hN A1 A2 hcA p q ⟨n + p.val, hp⟩ rfl]
  rw [stackBot_apply hN (broadcastInDim (⟨2, ![n, 1]⟩ : Shape) ![0] hb1 c1) (broadcastInDim (⟨2, ![n, 1]⟩ : Shape) ![0] hb1 c2)
    hcD p (0 : Fin 1) ⟨n + p.val, hp⟩ rfl]
  rw [bcastCol_apply, shapeCast_a_1a_apply, bcastCols_apply, bcastCol_apply,
    Cert.LibHostRow.bcastRows_apply, Cert.LibHostRow.bcastRow_apply, bcastScalar_apply, constant_apply, Ideal.ofBits_zero_f32]

end Cert.Gcn

end
-- ==== Proof.KValue.lean ====
/-
  The idealized kernel's two results as functions of the argument arrays.

  Through the four regions: the first product H1 on the two graphs' features stacked; the first layer's closing step
  OUT1 on the stacked aggregates of the two halves of H1; the second product H2 on the two halves of OUT1 stacked
  again; the second closing step OUT2.  The results are the two halves of OUT2.  A half of a product of stacked rows is
  the product of that graph's rows, and a half of the closing step on stacked arrays is the closing step on that
  graph's arrays, so each result is the two-layer network `net` on its own graph.
-/
import proofs.«160240_j4389456577462_1_alg».proof.Proof.KHost
import proofs.«160240_j4389456577462_1_alg».proof.Proof.Region0
import proofs.«160240_j4389456577462_1_alg».proof.Proof.Region1
import proofs.«160240_j4389456577462_1_alg».proof.Proof.Region2
import proofs.«160240_j4389456577462_1_alg».proof.Proof.Region3
import proofs.«160240_j4389456577462_1_alg».proof.Proof.Bridge
import proofs.«160240_j4389456577462_1_alg».proof.Proof.LibPlainLists

set_option maxRecDepth 16384
set_option maxHeartbeats 4000000

noncomputable section

namespace Cert.Gcn.KValue

open Cert.KernelIdeal Cert.KernelIdeal.Gen Cert.Gcn Cert.Gcn.KHost
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false

local notation "a0" => (m ((c : Thread nD τ).loc main_arg0))
local notation "e1" => (m ((c : Thread nD τ).loc main_arg1))
local notation "a2" => (m ((c : Thread nD τ).loc main_arg2))
local notation "e2" => (m ((c : Thread nD τ).loc main_arg3))
local notation "a4" => (m ((c : Thread nD τ).loc main_arg4))
local notation "a5" => (m ((c : Thread nD τ).loc main_arg5))
local notation "a6" => (m ((c : Thread nD τ).loc main_arg6))
local notation "a7" => (m ((c : Thread nD τ).loc main_arg7))
local notation "s1" => srcOf (F := Ideal) (m ((c : Thread nD τ).loc main_arg1))
local notation "d1" => dstOf (F := Ideal) (m ((c : Thread nD τ).loc main_arg1))
local notation "s2" => srcOf (F := Ideal) (m ((c : Thread nD τ).loc main_arg3))
local notation "d2" => dstOf (F := Ideal) (m ((c : Thread nD τ).loc main_arg3))

/-- The first product, on the two graphs' features stacked. -/
def H1 : S100000x128.Idx → EReal :=
  mmG (concatenate S100000x64 0 [⟨S50000x64, a0⟩, ⟨S50000x64, a2⟩] concatenates_S50000x64_S50000x64_S100000x64_d0) a4

/-- The first layer's closing step, on the stacked arrays. -/
def OUT1 : S100000x128.Idx → EReal :=
  finG (concatenate S100000x128 0
          [⟨S50000x128, agg128 (F := Ideal) (extractStridedSlice S50000x128 ![0, 0] (H1 m c) slices_S100000x128_S50000x128_0_0) s1 d1⟩,
           ⟨S50000x128, agg128 (F := Ideal) (extractStridedSlice S50000x128 ![50000, 0] (H1 m c) slices_S100000x128_S50000x128_50000_0) s2 d2⟩]
          concatenates_S50000x128_S50000x128_S100000x128_d0)
    (H1 m c)
    (concatenate S100000x1 0
          [⟨S50000x1, broadcastInDim S50000x1 ![0] bcast_S50000_S50000x1_0 (mulf (dinv (F := Ideal) d1) (dinv (F := Ideal) d1) : FVec Ideal S50000 .f32)⟩,
           ⟨S50000x1, broadcastInDim S50000x1 ![0] bcast_S50000_S50000x1_0 (mulf (dinv (F := Ideal) d2) (dinv (F := Ideal) d2) : FVec Ideal S50000 .f32)⟩]
          concatenates_S50000x1_S50000x1_S100000x1_d0)
    (shapeCast S1x128 a5 shapeCasts_S128_S1x128)

/-- The second product, on the two halves of OUT1 stacked again. -/
def H2 : S100000x64.Idx → EReal :=
  mmG (concatenate S100000x128 0
          [⟨S50000x128, extractStridedSlice S50000x128 ![0, 0] (OUT1 m c) slices_S100000x128_S50000x128_0_0⟩,
           ⟨S50000x128, extractStridedSlice S50000x128 ![50000, 0] (OUT1 m c) slices_S100000x128_S50000x128_50000_0⟩]
          concatenates_S50000x128_S50000x128_S100000x128_d0) a6

/-- The second layer's closing step, on the stacked arrays. -/
def OUT2 : S100000x64.Idx → EReal :=
  finG (concatenate S100000x64 0
          [⟨S50000x64, agg64 (F := Ideal) (extractStridedSlice S50000x64 ![0, 0] (H2 m c) slices_S100000x64_S50000x64_0_0) s1 d1⟩,
           ⟨S50000x64, agg64 (F := Ideal) (extractStridedSlice S50000x64 ![50000, 0] (H2 m c) slices_S100000x64_S50000x64_50000_0) s2 d2⟩]
          concatenates_S50000x64_S50000x64_S100000x64_d0)
    (H2 m c)
    (concatenate S100000x1 0
          [⟨S50000x1, broadcastInDim S50000x1 ![0] bcast_S50000_S50000x1_0 (mulf (dinv (F := Ideal) d1) (dinv (F := Ideal) d1) : FVec Ideal S50000 .f32)⟩,
           ⟨S50000x1, broadcastInDim S50000x1 ![0] bcast_S50000_S50000x1_0 (mulf (dinv (F := Ideal) d2) (dinv (F := Ideal) d2) : FVec Ideal S50000 .f32)⟩]
          concatenates_S50000x1_S50000x1_S100000x1_d0)
    (shapeCast S1x64 a7 shapeCasts_S64_S1x64)

/-! ## The regions' outputs at the boundaries -/

theorem w2_v23 : W2 m ρ c (Proc.devRef .tc main_v23) = H1 m c := by
  refine (W2_arr m ρ c 2).trans ((Region0.arr (V1 m ρ) c).trans ?_)
  unfold H1
  rw [show V1 m ρ c main_v22 = _ from w1_v22 m ρ c, show V1 m ρ c main_arg4 = _ from w1_arg4 m ρ c]

theorem w4_v89 : W4 m ρ c (Proc.devRef .tc main_v89) = OUT1 m c := by
  refine (W4_arr m ρ c 4).trans ((Region1.arr (V3 m ρ) c).trans ?_)
  unfold OUT1
  rw [show V3 m ρ c main_v82 = _ from w3_v82 m ρ c, show V3 m ρ c main_v23 = _ from (w3_v23 m ρ c).trans (w2_v23 m ρ c),
    show V3 m ρ c main_v87 = _ from w3_v87 m ρ c, show V3 m ρ c main_v88 = _ from w3_v88 m ρ c, w2_v23 m ρ c]

theorem w6_v93 : W6 m ρ c (Proc.devRef .tc main_v93) = H2 m c := by
  refine (W6_arr m ρ c 2).trans ((Region2.arr (V5 m ρ) c).trans ?_)
  unfold H2
  rw [show V5 m ρ c main_v92 = _ from w5_v92 m ρ c, show V5 m ρ c main_arg6 = _ from w5_arg6 m ρ c, w4_v89 m ρ c]

theorem w8_v159 : W8 m ρ c (Proc.devRef .tc main_v159) = OUT2 m c := by
  refine (W8_arr m ρ c 4).trans ((Region3.arr (V7 m ρ) c).trans ?_)
  unfold OUT2
  rw [show V7 m ρ c main_v152 = _ from w7_v152 m ρ c, show V7 m ρ c main_v93 = _ from (w7_v93 m ρ c).trans (w6_v93 m ρ c),
    show V7 m ρ c main_v157 = _ from w7_v157 m ρ c, show V7 m ρ c main_v158 = _ from w7_v158 m ρ c, w6_v93 m ρ c]

/-! ## Each half is the network on its own graph -/

theorem plain1 : Cert.LibMatmulSum.Plain Cert.ReferenceIdeal.dot_S50000x64_S64x128_S50000x128_1_0_0_1_n_n :=
  Cert.LibMatmulSum.Plain.of_lists _ rfl rfl rfl rfl rfl rfl
theorem plain2 : Cert.LibMatmulSum.Plain Cert.ReferenceIdeal.dot_S50000x128_S128x64_S50000x64_1_0_0_1_n_n :=
  Cert.LibMatmulSum.Plain.of_lists _ rfl rfl rfl rfl rfl rfl

theorem h1_top : extractStridedSlice S50000x128 ![0, 0] (H1 m c) slices_S100000x128_S50000x128_0_0 = dot1 (F := Ideal) a0 a4 :=
  mm_slice_top (n := 50000) (N := 100000) (K := 64) (w := 128) rfl a0 a2 a4 _ _ plain1 none
theorem h1_bot : extractStridedSlice S50000x128 ![50000, 0] (H1 m c) slices_S100000x128_S50000x128_50000_0 = dot1 (F := Ideal) a2 a4 :=
  mm_slice_bot (n := 50000) (N := 100000) (K := 64) (w := 128) rfl a0 a2 a4 _ _ plain1 none

theorem out1_top : extractStridedSlice S50000x128 ![0, 0] (OUT1 m c) slices_S100000x128_S50000x128_0_0
    = layer128 (F := Ideal) (dot1 (F := Ideal) a0 a4) a5 s1 d1 := by
  unfold OUT1
  refine (fin_slice_top (n := 50000) (N := 100000) (w := 128) rfl _ _ _ _ _ _ _ _ _
    Cert.ReferenceIdeal.Gen.bcast_S50000x1_S50000x128_0_1 Cert.ReferenceIdeal.Gen.bcast_S1x128_S50000x128_0_1
    Cert.ReferenceIdeal.Gen.bcast_S128_S1x128_1 Cert.ReferenceIdeal.Gen.bcast_S_S50000x128 _ _).trans ?_
  rw [h1_top m c]
  rfl
theorem out1_bot : extractStridedSlice S50000x128 ![50000, 0] (OUT1 m c) slices_S100000x128_S50000x128_50000_0
    = layer128 (F := Ideal) (dot1 (F := Ideal) a2 a4) a5 s2 d2 := by
  unfold OUT1
  refine (fin_slice_bot (n := 50000) (N := 100000) (w := 128) rfl _ _ _ _ _ _ _ _ _
    Cert.ReferenceIdeal.Gen.bcast_S50000x1_S50000x128_0_1 Cert.ReferenceIdeal.Gen.bcast_S1x128_S50000x128_0_1
    Cert.ReferenceIdeal.Gen.bcast_S128_S1x128_1 Cert.ReferenceIdeal.Gen.bcast_S_S50000x128 _ _).trans ?_
  rw [h1_bot m c]
  rfl

theorem h2_top : extractStridedSlice S50000x64 ![0, 0] (H2 m c) slices_S100000x64_S50000x64_0_0
    = dot2 (F := Ideal) (layer128 (F := Ideal) (dot1 (F := Ideal) a0 a4) a5 s1 d1) a6 :=
  (mm_slice_top (n := 50000) (N := 100000) (K := 128) (w := 64) rfl _ _ a6 _ _ plain2 none).trans (by rw [out1_top m c]; rfl)
theorem h2_bot : extractStridedSlice S50000x64 ![50000, 0] (H2 m c) slices_S100000x64_S50000x64_50000_0
    = dot2 (F := Ideal) (layer128 (F := Ideal) (dot1 (F := Ideal) a2 a4) a5 s2 d2) a6 :=
  (mm_slice_bot (n := 50000) (N := 100000) (K := 128) (w := 64) rfl _ _ a6 _ _ plain2 none).trans (by rw [out1_bot m c]; rfl)

theorem out2_top : extractStridedSlice S50000x64 ![0, 0] (OUT2 m c) slices_S100000x64_S50000x64_0_0
    = net (F := Ideal) a0 e1 a4 a5 a6 a7 := by
  unfold OUT2
  refine (fin_slice_top (n := 50000) (N := 100000) (w := 64) rfl _ _ _ _ _ _ _ _ _
    Cert.ReferenceIdeal.Gen.bcast_S50000x1_S50000x64_0_1 Cert.ReferenceIdeal.Gen.bcast_S1x64_S50000x64_0_1
    Cert.ReferenceIdeal.Gen.bcast_S64_S1x64_1 Cert.ReferenceIdeal.Gen.bcast_S_S50000x64 _ _).trans ?_
  rw [h2_top m c]
  rfl
theorem out2_bot : extractStridedSlice S50000x64 ![50000, 0] (OUT2 m c) slices_S100000x64_S50000x64_50000_0
    = net (F := Ideal) a2 e2 a4 a5 a6 a7 := by
  unfold OUT2
  refine (fin_slice_bot (n := 50000) (N := 100000) (w := 64) rfl _ _ _ _ _ _ _ _ _
    Cert.ReferenceIdeal.Gen.bcast_S50000x1_S50000x64_0_1 Cert.ReferenceIdeal.Gen.bcast_S1x64_S50000x64_0_1
    Cert.ReferenceIdeal.Gen.bcast_S64_S1x64_1 Cert.ReferenceIdeal.Gen.bcast_S_S50000x64 _ _).trans ?_
  rw [h2_bot m c]
  rfl

/-! ## The results -/

/-- The kernel's first result is the network on the first graph. -/
theorem res0 : W9 m ρ c (Proc.devRef .tc main_v160) = net (F := Ideal) a0 e1 a4 a5 a6 a7 := by
  rw [w9_v160 m ρ c, w8_v159 m ρ c]
  exact out2_top m c

/-- The kernel's second result is the network on the second graph. -/
theorem res1 : W9 m ρ c (Proc.devRef .tc main_v161) = net (F := Ideal) a2 e2 a4 a5 a6 a7 := by
  rw [w9_v161 m ρ c, w8_v159 m ρ c]
  exact out2_bot m c

end Cert.Gcn.KValue

end
-- ==== Proof.RefTerm.lean ====
/-
  The reference program's two results are the network `net` applied to each graph's arrays: its run's composed term,
  unfolded, is that function of the arguments, symbol for symbol.
-/
import proofs.«160240_j4389456577462_1_alg».proof.Proof.Gen.ReferenceIdeal.Run
import proofs.«160240_j4389456577462_1_alg».proof.Proof.Layer

set_option maxRecDepth 16384

noncomputable section

namespace Cert.Gcn

open Idealize.ShloMosaic Idealize.ShloMosaic.TcCoe Idealize.SL.Sem Cert.ReferenceIdeal

variable {F : FTy → Type} [FloatOps F]

/-- The reference's first result is the network on the first graph. -/
theorem ref_out0 (m : (ℓ : Loc nD τ sig) → Buf (Elt F) ℓ) (c : Dev nD) :
    Cert.ReferenceIdeal.Value.res_main_v142 m c
      = net (F := F) (m ((c.tc : Thread nD τ).loc main_arg0)) (m ((c.tc : Thread nD τ).loc main_arg1))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v142 net layer64 layer128 close64 close128 agg64 agg128 coef dinv wrap srcOf dstOf dot1 dot2
  rfl

/-- The reference's second result is the network on the second graph. -/
theorem ref_out1 (m : (ℓ : Loc nD τ sig) → Buf (Elt F) ℓ) (c : Dev nD) :
    Cert.ReferenceIdeal.Value.res_main_v187 m c
      = net (F := F) (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v187 net layer64 layer128 close64 close128 agg64 agg128 coef dinv wrap srcOf dstOf dot1 dot2
  rfl

end Cert.Gcn

end
-- ==== Proof.lean ====
/-
  The certificate of a two-layer graph convolution on two graphs.

  The kernel stacks the two graphs' node features, multiplies the stack by the layer's weights in one blocked matrix
  product, aggregates each graph's half over its own edges on the host, and closes the layer — max(agg + dinv^2 * h + b, 0)
  — again on the stacked arrays, twice.  The reference runs the same layer on each graph separately.  Over the
  extended reals the two agree array by array: a half of a product of stacked rows is the product of that graph's rows
  (the same sum over the inner index), a half of the closing step on stacked arrays is the closing step on that graph's
  arrays (it acts entry by entry), and everything else — degrees, dinv, the gathers and the scatter-adds — is the same
  host operation applied to equal arrays.  No law is used that needs a finite input.

  Modules: Spec (the two dense steps as whole-array functions), Region0–3 (each region's output array is that function
  of the arrays it reads), Bridge (a half of either step on stacked arrays, in the host's own operations), Layer (one
  layer and the network on one graph), KRun / KHost / KValue (the kernel's run, its host stretches, its two results),
  RefTerm (the reference's two results).
-/
import proofs.«160240_j4389456577462_1_alg».proof.Defs
import proofs.«160240_j4389456577462_1_alg».proof.Proof.Gen.Kernel
import proofs.«160240_j4389456577462_1_alg».proof.Proof.Gen.Kernel.Skeleton
import proofs.«160240_j4389456577462_1_alg».proof.Proof.Gen.Kernel.Launch
import proofs.«160240_j4389456577462_1_alg».proof.Proof.Gen.Kernel.Points
import proofs.«160240_j4389456577462_1_alg».proof.Proof.Gen.Kernel.Frame
import proofs.«160240_j4389456577462_1_alg».proof.Proof.Gen.KernelIdeal
import proofs.«160240_j4389456577462_1_alg».proof.Proof.Gen.KernelIdeal.Skeleton
import proofs.«160240_j4389456577462_1_alg».proof.Proof.Gen.KernelIdeal.Launch
import proofs.«160240_j4389456577462_1_alg».proof.Proof.Gen.KernelIdeal.Points
import proofs.«160240_j4389456577462_1_alg».proof.Proof.Gen.KernelIdeal.Frame
import proofs.«160240_j4389456577462_1_alg».proof.Proof.Gen.ReferenceIdeal
import proofs.«160240_j4389456577462_1_alg».proof.Proof.Gen.ReferenceIdeal.Run
import proofs.«160240_j4389456577462_1_alg».proof.Proof.Gen.Pre_finite_inputs
import proofs.«160240_j4389456577462_1_alg».proof.Proof.KRun
import proofs.«160240_j4389456577462_1_alg».proof.Proof.KValue
import proofs.«160240_j4389456577462_1_alg».proof.Proof.RefTerm
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the network on the first graph and the network on the second graph. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Gcn.net (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Gcn.KValue.res0 m ρ c), (h c).2.1.trans (Cert.Gcn.KValue.res1 m ρ c), (h c).2.2⟩)
      (Cert.Gcn.KRun.run (F := Ideal) m ρ)
  · refine (θ_run Cert.ReferenceIdeal.defs _ _).mono (fun _ h c => ?_) (Cert.ReferenceIdeal.Value.run (F := Ideal) m' ρ')
    obtain ⟨h0, h1, h2, h3, h4, h5, h6, h7⟩ := hagree c
    refine ⟨(h c).1.trans ((Cert.Gcn.ref_out0 m' c).trans ?_), (h c).2.1.trans ((Cert.Gcn.ref_out1 m' c).trans ?_), (h c).2.2⟩
    · rw [h0, h1, h4, h5, h6, h7]
    · rw [h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
